-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  main_v3
-- ==== Kernel.lean ====
abbrev S8x19x512x512 : Shape := ⟨4, ![8, 19, 512, 512]⟩
abbrev S8x512x512 : Shape := ⟨3, ![8, 512, 512]⟩
abbrev S8x19x1 : Shape := ⟨3, ![8, 19, 1]⟩
abbrev S1x19x128x512 : Shape := ⟨4, ![1, 19, 128, 512]⟩
abbrev S1x128x512 : Shape := ⟨3, ![1, 128, 512]⟩
abbrev S1x19x1 : Shape := ⟨3, ![1, 19, 1]⟩
abbrev S19x1 : Shape := ⟨2, ![19, 1]⟩
abbrev S19x128x512 : Shape := ⟨3, ![19, 128, 512]⟩
abbrev S128x512 : Shape := ⟨2, ![128, 512]⟩
abbrev S19x128 : Shape := ⟨2, ![19, 128]⟩
abbrev S19x128x1 : Shape := ⟨3, ![19, 128, 1]⟩
abbrev S19x1x1 : Shape := ⟨3, ![19, 1, 1]⟩
abbrev S8x19 : Shape := ⟨2, ![8, 19]⟩
abbrev S_ : Shape := ⟨0, ![]⟩

abbrev nBuf : Space → Nat
  | .hbm => 35
  | .vmem => 10
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x1, .f32⟩
  | .hbm, ⟨3, _⟩ => ⟨S8x19x1, .f32⟩
  | .hbm, ⟨4, _⟩ => ⟨S8x19x1, .f32⟩
  | .hbm, ⟨5, _⟩ => ⟨S8x19, .f32⟩
  | .hbm, ⟨6, _⟩ => ⟨S8x19, .f32⟩
  | .hbm, ⟨7, _⟩ => ⟨S8x19, .f32⟩
  | .hbm, ⟨8, _⟩ => ⟨S8x19, .f32⟩
  | .hbm, ⟨9, _⟩ => ⟨S8x19, .f32⟩
  | .hbm, ⟨10, _⟩ => ⟨S_, .f32⟩
  | .hbm, ⟨11, _⟩ => ⟨S8x19, .f32⟩
  | .hbm, ⟨12, _⟩ => ⟨S8x19, .f32⟩
  | .hbm, ⟨13, _⟩ => ⟨S_, .f32⟩
  | .hbm, ⟨14, _⟩ => ⟨S8x19, .f32⟩
  | .hbm, ⟨15, _⟩ => ⟨S8x19, .f32⟩
  | .hbm, ⟨16, _⟩ => ⟨S8x19, .f32⟩
  | .hbm, ⟨17, _⟩ => ⟨S_, .f32⟩
  | .hbm, ⟨18, _⟩ => ⟨S8x19, .f32⟩
  | .hbm, ⟨19, _⟩ => ⟨S8x19, .f32⟩
  | .hbm, ⟨20, _⟩ => ⟨S8x19, .f32⟩
  | .hbm, ⟨21, _⟩ => ⟨S_, .f32⟩
  | .hbm, ⟨22, _⟩ => ⟨S8x19, .f32⟩
  | .hbm, ⟨23, _⟩ => ⟨S8x19, .f32⟩
  | .hbm, ⟨24, _⟩ => ⟨S8x19, .f32⟩
  | .hbm, ⟨25, _⟩ => ⟨S_, .f32⟩
  | .hbm, ⟨26, _⟩ => ⟨S8x19, .f32⟩
  | .hbm, ⟨27, _⟩ => ⟨S8x19, .f32⟩
  | .hbm, ⟨28, _⟩ => ⟨S_, .f32⟩
  | .hbm, ⟨29, _⟩ => ⟨S8x19, .f32⟩
  | .hbm, ⟨30, _⟩ => ⟨S8x19, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128x512, .i32⟩
  | .local _ .vmem, ⟨3, _⟩ => ⟨S1x128x512, .i32⟩
  | .local _ .vmem, ⟨4, _⟩ => ⟨S1x19x1, .f32⟩
  | .local _ .vmem, ⟨5, _⟩ => ⟨S1x19x1, .f32⟩
  | .local _ .vmem, ⟨6, _⟩ => ⟨S1x19x1, .f32⟩
  | .local _ .vmem, ⟨7, _⟩ => ⟨S1x19x1, .f32⟩
  | .local _ .vmem, ⟨8, _⟩ => ⟨S1x19x1, .f32⟩
  | .local _ .vmem, ⟨9, _⟩ => ⟨S1x19x1, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x19x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x19x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x19x1_S1x19x1_0_0_0 : ∀ a, (![0, 0, 0] : Fin 3 → Nat) a + S1x19x1.size a ≤ S1x19x1.size a
  h_S1x19x1 : 0 < S1x19x1.numel
  shapeCasts_S1x19x1_S19x1 : S1x19x1.ShapeCasts S19x1
  shapeCasts_S19x1_S1x19x1 : S19x1.ShapeCasts S1x19x1
  inb_S1x19x128x512_S1x19x128x512_0_0_0_0 : ∀ a, (![0, 0, 0, 0] : Fin 4 → Nat) a + S1x19x128x512.size a ≤ S1x19x128x512.size a
  h_S1x19x128x512 : 0 < S1x19x128x512.numel
  shapeCasts_S1x19x128x512_S19x128x512 : S1x19x128x512.ShapeCasts S19x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S19x128x512_S128x512 : S19x128x512.Reduces [0] S128x512
  shapeCasts_S128x512_S1x128x512 : S128x512.ShapeCasts S1x128x512
  broadcasts_S1x128x512_S19x128x512 : S1x128x512.Broadcasts S19x128x512
  iota_S19x128x512_d0_w32 : S19x128x512.Iotas .tc 32 [0]
  natLt_1_32 : 1 < 32
  reduces_S19x128x512_S19x128 : S19x128x512.Reduces [2] S19x128
  shapeCasts_S19x128_S19x128x1 : S19x128.ShapeCasts S19x128x1
  reduces_S19x128x1_S19x1 : S19x128x1.Reduces [1] S19x1
  shapeCasts_S19x1_S19x1x1 : S19x1.ShapeCasts S19x1x1
  shapeCasts_S19x1x1_S19x1 : S19x1x1.ShapeCasts S19x1
  shapeCasts_S8x19x1_S8x19 : S8x19x1.ShapeCasts S8x19
  bcast_S_S8x19 : S_.BroadcastsInDim S8x19 (![] : Fin 0 → Fin S8x19.rank)
  reducesTo_S8x19_S_d0_1 : S8x19.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x512.size a ≤ S8x19x512x512.size a
  hwx0_0 : ∀ i : grid0.Coords, EltTy.bits .f32 = 32 ∨ (Rect.block (s := S8x19x512x512) S1x19x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x1.size a ≤ S8x19x1.size a
  hwx0_2 : ∀ i : grid0.Coords, EltTy.bits .f32 = 32 ∨ (Rect.block (s := S8x19x1) S1x19x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x1.size a ≤ S8x19x1.size a
  hwx0_3 : ∀ i : grid0.Coords, EltTy.bits .f32 = 32 ∨ (Rect.block (s := S8x19x1) S1x19x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x1.size a ≤ S8x19x1.size a
  hwx0_4 : ∀ i : grid0.Coords, EltTy.bits .f32 = 32 ∨ (Rect.block (s := S8x19x1) S1x19x1.size (cc0_transform_4 i) (hinb0_4 i)).WholeWords (EltTy.packing .f32)

variable [Facts₀]

abbrev win0_0 : Pipeline.Window sig grid0 :=
  Pipeline.Window.ofSpec (Memref.whole main_arg0) S1x19x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x19x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x19x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x19x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S19 : Shape := ⟨1, ![19]⟩
abbrev S1x19x1x1 : Shape := ⟨4, ![1, 19, 1, 1]⟩
abbrev S8x19 : Shape := ⟨2, ![8, 19]⟩

abbrev nBuf : Space → Nat
  | .hbm => 63
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x19x512x512, .f32⟩
  | .hbm, ⟨15, _⟩ => ⟨S8x19x512x512, .f32⟩
  | .hbm, ⟨16, _⟩ => ⟨S8x1x512x512, .i32⟩
  | .hbm, ⟨17, _⟩ => ⟨S19, .i32⟩
  | .hbm, ⟨18, _⟩ => ⟨S1x19x1x1, .i32⟩
  | .hbm, ⟨19, _⟩ => ⟨S8x19x512x512, .i32⟩
  | .hbm, ⟨20, _⟩ => ⟨S8x19x512x512, .i32⟩
  | .hbm, ⟨21, _⟩ => ⟨S8x19x512x512, .i1⟩
  | .hbm, ⟨22, _⟩ => ⟨S8x19x512x512, .f32⟩
  | .hbm, ⟨23, _⟩ => ⟨S8x19x512x512, .f32⟩
  | .hbm, ⟨24, _⟩ => ⟨S_, .f32⟩
  | .hbm, ⟨25, _⟩ => ⟨S8x19, .f32⟩
  | .hbm, ⟨26, _⟩ => ⟨S_, .f32⟩
  | .hbm, ⟨27, _⟩ => ⟨S8x19x512x512, .f32⟩
  | .hbm, ⟨28, _⟩ => ⟨S8x19x512x512, .f32⟩
  | .hbm, ⟨29, _⟩ => ⟨S8x19x512x512, .f32⟩
  | .hbm, ⟨30, _⟩ => ⟨S_, .f32⟩
  | .hbm, ⟨31, _⟩ => ⟨S8x19, .f32⟩
  | .hbm, ⟨32, _⟩ => ⟨S_, .f32⟩
  | .hbm, ⟨33, _⟩ => ⟨S8x19x512x512, .f32⟩
  | .hbm, ⟨34, _⟩ => ⟨S8x19x512x512, .f32⟩
  | .hbm, ⟨35, _⟩ => ⟨S8x19x512x512, .f32⟩
  | .hbm, ⟨36, _⟩ => ⟨S_, .f32⟩
  | .hbm, ⟨37, _⟩ => ⟨S8x19, .f32⟩
  | .hbm, ⟨38, _⟩ => ⟨S_, .f32⟩
  | .hbm, ⟨39, _⟩ => ⟨S8x19, .f32⟩
  | .hbm, ⟨40, _⟩ => ⟨S8x19, .f32⟩
  | .hbm, ⟨41, _⟩ => ⟨S_, .f32⟩
  | .hbm, ⟨42, _⟩ => ⟨S8x19, .f32⟩
  | .hbm, ⟨43, _⟩ => ⟨S8x19, .f32⟩
  | .hbm, ⟨44, _⟩ => ⟨S8x19, .f32⟩
  | .hbm, ⟨45, _⟩ => ⟨S_, .f32⟩
  | .hbm, ⟨46, _⟩ => ⟨S8x19, .f32⟩
  | .hbm, ⟨47, _⟩ => ⟨S8x19, .f32⟩
  | .hbm, ⟨48, _⟩ => ⟨S8x19, .f32⟩
  | .hbm, ⟨49, _⟩ => ⟨S_, .f32⟩
  | .hbm, ⟨50, _⟩ => ⟨S8x19, .f32⟩
  | .hbm, ⟨51, _⟩ => ⟨S8x19, .f32⟩
  | .hbm, ⟨52, _⟩ => ⟨S8x19, .f32⟩
  | .hbm, ⟨53, _⟩ => ⟨S_, .f32⟩
  | .hbm, ⟨54, _⟩ => ⟨S8x19, .f32⟩
  | .hbm, ⟨55, _⟩ => ⟨S8x19, .f32⟩
  | .hbm, ⟨56, _⟩ => ⟨S_, .f32⟩
  | .hbm, ⟨57, _⟩ => ⟨S8x19, .f32⟩
  | .hbm, ⟨58, _⟩ => ⟨S8x19, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_cst_14 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  reducesTo_S8x19x512x512_S8x512x512_d1 : S8x19x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S19_S1x19x1x1_1 : S19.BroadcastsInDim S1x19x1x1 (![1] : Fin 1 → Fin S1x19x1x1.rank)
  bcast_S1x19x1x1_S8x19x512x512_0_1_2_3 : S1x19x1x1.BroadcastsInDim S8x19x512x512 (![0, 1, 2, 3] : Fin 4 → Fin S8x19x512x512.rank)
  reducesTo_S8x19x512x512_S8x19_d2_3 : S8x19x512x512.ReducesTo [2, 3] S8x19
  bcast_S_S8x19x512x512 : S_.BroadcastsInDim S8x19x512x512 (![] : Fin 0 → Fin S8x19x512x512.rank)
  bcast_S_S8x19 : S_.BroadcastsInDim S8x19 (![] : Fin 0 → Fin S8x19.rank)
  reducesTo_S8x19_S_d0_1 : S8x19.ReducesTo [0, 1] S_

variable [Facts₀]

class Facts : Prop extends Facts₀ where

variable [Facts]
-- ==== Proof.Pieces.lean ====
/-
  What one run of the body leaves in the three result blocks, read back as values.

  The body keeps three running blocks of shape [1, 19, 1] — the sum of the probabilities, the count of the labels,
  and the sum of the probabilities at the labelled class, per class.  At the first row tile of an image (case A) it
  first stores a zero block and then stores "what it just stored, plus this tile's sums"; at the later tiles
  (case B) it stores "what the tile before left, plus this tile's sums".  Each result block is covered by its
  last store, so what the block holds afterwards is that store's value.
-/
import proofs.«157776_j17343077941338_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem out_A_2 (c : Dev nD) (i : grid0.Coords) (a2 : Memref sig .tc .vmem S1x19x128x512 .f32) (h2 : a2.IsWhole)
    (a3 : Memref sig .tc .vmem S1x128x512 .i32) (h3 : a3.IsWhole) (a4 : Memref sig .tc .vmem S1x19x1 .f32) (h4 : a4.IsWhole)
    (a5 : Memref sig .tc .vmem S1x19x1 .f32) (h5 : a5.IsWhole) (a6 : Memref sig .tc .vmem S1x19x1 .f32) (h6 : a6.IsWhole)
    (hc : cond0_0 i) (x0 : Vec F S1x19x128x512 .f32) (x1 : Vec F S1x128x512 .i32) :
    out0_A_2 c i a2 h2 a3 h3 a4 h4 a5 h5 a6 h6 hc x0 x1 = k0_pay9 x0 (k0_pay3 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x19x1) hz3, View.readCov_unit_zero (S := S1x19x1) _ hz3]
  simp only [View.readAt_eq_ld, h2.read_unread, h3.read_unread, h4.read_unread, h5.read_unread, h6.read_unread,
    View.ld_unit_zero (S := S1x19x128x512) hz4, View.ld_unit_zero (S := S1x128x512) hz3, View.ld_unit_zero (S := S1x19x1) hz3]

theorem out_A_3 (c : Dev nD) (i : grid0.Coords) (a2 : Memref sig .tc .vmem S1x19x128x512 .f32) (h2 : a2.IsWhole)
    (a3 : Memref sig .tc .vmem S1x128x512 .i32) (h3 : a3.IsWhole) (a4 : Memref sig .tc .vmem S1x19x1 .f32) (h4 : a4.IsWhole)
    (a5 : Memref sig .tc .vmem S1x19x1 .f32) (h5 : a5.IsWhole) (a6 : Memref sig .tc .vmem S1x19x1 .f32) (h6 : a6.IsWhole)
    (hc : cond0_0 i) (x0 : Vec F S1x19x128x512 .f32) (x1 : Vec F S1x128x512 .i32) :
    out0_A_3 c i a2 h2 a3 h3 a4 h4 a5 h5 a6 h6 hc x0 x1 = k0_pay1 (k0_pay7 x1) (k0_pay4 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x19x1) hz3, View.readCov_unit_zero (S := S1x19x1) _ hz3]
  simp only [View.readAt_eq_ld, h2.read_unread, h3.read_unread, h4.read_unread, h5.read_unread, h6.read_unread,
    View.ld_unit_zero (S := S1x19x128x512) hz4, View.ld_unit_zero (S := S1x128x512) hz3, View.ld_unit_zero (S := S1x19x1) hz3]

theorem out_A_4 (c : Dev nD) (i : grid0.Coords) (a2 : Memref sig .tc .vmem S1x19x128x512 .f32) (h2 : a2.IsWhole)
    (a3 : Memref sig .tc .vmem S1x128x512 .i32) (h3 : a3.IsWhole) (a4 : Memref sig .tc .vmem S1x19x1 .f32) (h4 : a4.IsWhole)
    (a5 : Memref sig .tc .vmem S1x19x1 .f32) (h5 : a5.IsWhole) (a6 : Memref sig .tc .vmem S1x19x1 .f32) (h6 : a6.IsWhole)
    (hc : cond0_0 i) (x0 : Vec F S1x19x128x512 .f32) (x1 : Vec F S1x128x512 .i32) :
    out0_A_4 c i a2 h2 a3 h3 a4 h4 a5 h5 a6 h6 hc x0 x1 = k0_pay2 (k0_pay8 x0 x1) (k0_pay5 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x19x1) hz3, View.readCov_unit_zero (S := S1x19x1) _ hz3]
  simp only [View.readAt_eq_ld, h2.read_unread, h3.read_unread, h4.read_unread, h5.read_unread, h6.read_unread,
    View.ld_unit_zero (S := S1x19x128x512) hz4, View.ld_unit_zero (S := S1x128x512) hz3, View.ld_unit_zero (S := S1x19x1) hz3]

theorem out_B_2 (c : Dev nD) (i : grid0.Coords) (a2 : Memref sig .tc .vmem S1x19x128x512 .f32) (h2 : a2.IsWhole)
    (a3 : Memref sig .tc .vmem S1x128x512 .i32) (h3 : a3.IsWhole) (a4 : Memref sig .tc .vmem S1x19x1 .f32) (h4 : a4.IsWhole)
    (a5 : Memref sig .tc .vmem S1x19x1 .f32) (h5 : a5.IsWhole) (a6 : Memref sig .tc .vmem S1x19x1 .f32) (h6 : a6.IsWhole)
    (hc : ¬cond0_0 i) (x0 : Vec F S1x19x128x512 .f32) (x1 : Vec F S1x128x512 .i32) (xo2 xo3 xo4 : Vec F S1x19x1 .f32) :
    out0_B_2 c i a2 h2 a3 h3 a4 h4 a5 h5 a6 h6 hc x0 x1 xo2 xo3 xo4 = k0_pay9 x0 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x19x128x512) hz4, View.ld_unit_zero (S := S1x128x512) hz3, View.ld_unit_zero (S := S1x19x1) hz3]

theorem out_B_3 (c : Dev nD) (i : grid0.Coords) (a2 : Memref sig .tc .vmem S1x19x128x512 .f32) (h2 : a2.IsWhole)
    (a3 : Memref sig .tc .vmem S1x128x512 .i32) (h3 : a3.IsWhole) (a4 : Memref sig .tc .vmem S1x19x1 .f32) (h4 : a4.IsWhole)
    (a5 : Memref sig .tc .vmem S1x19x1 .f32) (h5 : a5.IsWhole) (a6 : Memref sig .tc .vmem S1x19x1 .f32) (h6 : a6.IsWhole)
    (hc : ¬cond0_0 i) (x0 : Vec F S1x19x128x512 .f32) (x1 : Vec F S1x128x512 .i32) (xo2 xo3 xo4 : Vec F S1x19x1 .f32) :
    out0_B_3 c i a2 h2 a3 h3 a4 h4 a5 h5 a6 h6 hc x0 x1 xo2 xo3 xo4 = k0_pay1 (k0_pay7 x1) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x19x128x512) hz4, View.ld_unit_zero (S := S1x128x512) hz3, View.ld_unit_zero (S := S1x19x1) hz3]

theorem out_B_4 (c : Dev nD) (i : grid0.Coords) (a2 : Memref sig .tc .vmem S1x19x128x512 .f32) (h2 : a2.IsWhole)
    (a3 : Memref sig .tc .vmem S1x128x512 .i32) (h3 : a3.IsWhole) (a4 : Memref sig .tc .vmem S1x19x1 .f32) (h4 : a4.IsWhole)
    (a5 : Memref sig .tc .vmem S1x19x1 .f32) (h5 : a5.IsWhole) (a6 : Memref sig .tc .vmem S1x19x1 .f32) (h6 : a6.IsWhole)
    (hc : ¬cond0_0 i) (x0 : Vec F S1x19x128x512 .f32) (x1 : Vec F S1x128x512 .i32) (xo2 xo3 xo4 : Vec F S1x19x1 .f32) :
    out0_B_4 c i a2 h2 a3 h3 a4 h4 a5 h5 a6 h6 hc x0 x1 xo2 xo3 xo4 = k0_pay2 (k0_pay8 x0 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x19x128x512) hz4, View.ld_unit_zero (S := S1x128x512) hz3, View.ld_unit_zero (S := S1x19x1) hz3]

end Cert.KernelIdeal.Pieces

end
-- ==== Proof.Softmax.lean ====
/-
  The mathematics of the loss, away from any program.

  For one pixel, the class scores are a column `x : Fin 19 → EReal`.  Its softmax is taken the stable way:
  `M = max_c x_c` (a fold of `max` from −∞), `e_c = exp (x_c − M)`, `p_c = e_c / Σ_k e_k`.  The label `l` of the
  pixel gives the one-hot value `[l = c]`.  When every score is a real number, `M` is real, each `e_c` is a positive
  real, their sum is a positive real, and so every `p_c` is a real number.

  Over real-valued `p` and `o` on a finite grid of pixels, the false-positive and false-negative sums split:
  `Σ (1 − o)·p = Σ p − Σ p·o` and `Σ o·(1 − p) = Σ o − Σ p·o`.  On the extended reals these need finiteness
  (they cancel a term), which is why the columns are first shown to be real.
-/
import Idealize.ShloMosaic.PureOps.Ideal.Laws

noncomputable section

namespace Cert.Tversky

open Idealize.ShloMosaic

/-- The word of −∞ denotes the bottom extended real. -/
theorem ofBits_neg_inf : Ideal.ofBits .f32 0xFF800000#32 = ⊥ := by
  simp [Ideal.ofBits, Ideal.ieee]

/-- The word of 1.0 denotes 1. -/
theorem ofBits_one : Ideal.ofBits .f32 0x3F800000#32 = 1 := IdealRules.sign_bit.ideal_onePat .f32

/-- The largest score of a column: the fold of `max` from −∞ over the nineteen classes. -/
def smax (x : Fin 19 → EReal) : EReal :=
  (Finset.univ : Finset (Fin 19)).fold max (Ideal.ofBits .f32 0xFF800000#32) x

/-- The shifted exponential of class `c`. -/
def sexp (x : Fin 19 → EReal) (c : Fin 19) : EReal := Ideal.exp (x c - smax x)

/-- The softmax probability of class `c`. -/
def prob (x : Fin 19 → EReal) (c : Fin 19) : EReal := Ideal.div (sexp x c) (∑ k : Fin 19, sexp x k)

/-- The one-hot value of class `c` for the label word `l`. -/
def hot (l : BitVec 32) (c : Fin 19) : EReal := if l = BitVec.ofNat 32 c.val then 1 else 0

/-- A finite sum of real numbers, taken in the extended reals, is the real sum. -/
theorem coe_sum {ι : Type*} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

/-- The largest of nineteen real scores is a real number. -/
theorem smax_real (x : Fin 19 → EReal) (hx : ∀ c, ∃ r : ℝ, x c = r) : ∃ M : ℝ, smax x = M := by
  have hlt : smax x < ⊤ := by
    unfold smax
    rw [Finset.fold_max_lt]
    refine ⟨by rw [ofBits_neg_inf]; exact bot_lt_top, fun c _ => ?_⟩
    obtain ⟨r, hr⟩ := hx c
    rw [hr]; exact EReal.coe_lt_top r
  have hgt : ⊥ < smax x := by
    unfold smax
    rw [Finset.lt_fold_max]
    right
    obtain ⟨r, hr⟩ := hx 0
    exact ⟨0, Finset.mem_univ _, by rw [hr]; exact EReal.bot_lt_coe r⟩
  exact ⟨(smax x).toReal, (EReal.coe_toReal hlt.ne hgt.ne').symm⟩

/-- Every softmax probability of a column of real scores is a real number. -/
theorem prob_real (x : Fin 19 → EReal) (hx : ∀ c, ∃ r : ℝ, x c = r) (c : Fin 19) : ∃ r : ℝ, prob x c = r := by
  obtain ⟨M, hM⟩ := smax_real x hx
  choose xr hxr using hx
  have he : ∀ k, sexp x k = ((Real.exp (xr k - M) : ℝ) : EReal) := by
    intro k
    unfold sexp
    rw [hxr k, hM, ← EReal.coe_sub, Ideal.exp_coe]
  have hs : (∑ k : Fin 19, sexp x k) = ((∑ k : Fin 19, Real.exp (xr k - M) : ℝ) : EReal) := by
    rw [← coe_sum]; exact Finset.sum_congr rfl fun k _ => he k
  have hpos : 0 < ∑ k : Fin 19, Real.exp (xr k - M) :=
    Finset.sum_pos (fun k _ => Real.exp_pos _) ⟨0, Finset.mem_univ _⟩
  refine ⟨Real.exp (xr c - M) * (1 / ∑ k : Fin 19, Real.exp (xr k - M)), ?_⟩
  unfold prob
  rw [hs, he c, Ideal.div_coe hpos.ne', ← EReal.coe_mul]

/-- A one-hot value is a real number. -/
theorem hot_real (l : BitVec 32) (c : Fin 19) : ∃ r : ℝ, hot l c = r := by
  unfold hot
  by_cases h : l = BitVec.ofNat 32 c.val
  · exact ⟨1, by rw [if_pos h]; rfl⟩
  · exact ⟨0, by rw [if_neg h]; rfl⟩

section Laws
variable {α β : Type*} [Fintype α] [Fintype β]

/-- Over real-valued `P` and `O`: `Σ (1 − O)·P = Σ P − Σ P·O`. -/
theorem sum_compl_mul (P O : α → β → EReal) (hP : ∀ a b, ∃ r : ℝ, P a b = r) (hO : ∀ a b, ∃ r : ℝ, O a b = r) :
    (∑ a, ∑ b, ((1 : EReal) - O a b) * P a b) = (∑ a, ∑ b, P a b) - ∑ a, ∑ b, P a b * O a b := by
  choose p hp using hP
  choose o ho using hO
  have e1 : ∀ a b, ((1 : EReal) - (o a b : EReal)) * (p a b : EReal) = (((1 - o a b) * p a b : ℝ) : EReal) := fun a b => by
    rw [EReal.coe_mul, EReal.coe_sub, EReal.coe_one]
  have e2 : ∀ a b, (p a b : EReal) * (o a b : EReal) = ((p a b * o a b : ℝ) : EReal) := fun a b => (EReal.coe_mul _ _).symm
  simp only [hp, ho, e1, e2, coe_sum]
  rw [← EReal.coe_sub]
  congr 1
  rw [← Finset.sum_sub_distrib]
  refine Finset.sum_congr rfl fun a _ => ?_
  rw [← Finset.sum_sub_distrib]
  exact Finset.sum_congr rfl fun b _ => by ring

/-- Over real-valued `P` and `O`: `Σ O·(1 − P) = Σ O − Σ P·O`. -/
theorem sum_mul_compl (P O : α → β → EReal) (hP : ∀ a b, ∃ r : ℝ, P a b = r) (hO : ∀ a b, ∃ r : ℝ, O a b = r) :
    (∑ a, ∑ b, O a b * ((1 : EReal) - P a b)) = (∑ a, ∑ b, O a b) - ∑ a, ∑ b, P a b * O a b := by
  choose p hp using hP
  choose o ho using hO
  have e1 : ∀ a b, (o a b : EReal) * ((1 : EReal) - (p a b : EReal)) = ((o a b * (1 - p a b) : ℝ) : EReal) := fun a b => by
    rw [EReal.coe_mul, EReal.coe_sub, EReal.coe_one]
  have e2 : ∀ a b, (p a b : EReal) * (o a b : EReal) = ((p a b * o a b : ℝ) : EReal) := fun a b => (EReal.coe_mul _ _).symm
  simp only [hp, ho, e1, e2, coe_sum]
  rw [← EReal.coe_sub]
  congr 1
  rw [← Finset.sum_sub_distrib]
  refine Finset.sum_congr rfl fun a _ => ?_
  rw [← Finset.sum_sub_distrib]
  exact Finset.sum_congr rfl fun b _ => by ring

end Laws

end Cert.Tversky

end
-- ==== Proof.LibAxisFolds.lean ====
/-
  Folds along one axis, and a host sum over the two trailing axes, of rank-3 and rank-4 arrays, read at
  coordinates at the ideal values (floats are extended reals, every operation exact); and two keepdims layouts.
  For any extents, and any float type or (for the layouts) any element type:

  * a vector sum over the LEADING axis of [a, b, c] into [b, c], at (r, w), is the sum over k < a of the array at
    (k, r, w) (`multiReduction_add_lead_apply`), and a vector maximum over that axis is the fold of `max` from the
    accumulator's value over the same entries (`multiReduction_max_lead_apply`);
  * a vector sum over the LAST axis of [a, b, c] into [a, b], at (p, n), is the sum over k < c of the array at
    (p, n, k) (`multiReduction_add_last3_apply`);
  * a host maximum over axis 1 of [a, b, c, d] into [a, c, d], at (p, r, w), is the fold of `max` from the initial
    value over k < b of the array at (p, k, r, w) (`hostReduce_max_axis1_apply`);
  * a host sum over the TWO TRAILING axes of [a, b, c, d] into [a, b], at (p, q), is the initial value plus the
    double sum over n < c and k < d of the array at (p, q, n, k) (`hostReduceAdd_trailing_two4_apply`): the indices
    that drop to (p, q) are exactly the (p, q, n, k), in bijection with the pairs (n, k);
  * an array [b, c] laid as [1, b, c] and broadcast along a new leading axis to [a, b, c] reads, at (k, r, w), its
    entry (r, w) (`leadBroadcast_apply`); an array [a, b] given a trailing unit axis reads, at (p, n, ·), its entry
    (p, n) (`shapeCast_ab_ab1_apply`).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.AxisFolds

open Idealize.ShloMosaic Idealize.ShloMosaic.ValueIdx

variable {φ : FTy}

/-- A vector sum over the leading axis of [a, b, c], read at (r, w): the sum over the leading coordinate. -/
theorem multiReduction_add_lead_apply {a b c : Nat} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.add.neutral φ hφ) (r : Fin b) (w : Fin c) :
    multiReduction .add [0] ⟨2, ![b, c]⟩ src acc h hφ hacc (ix2 r w) = ∑ k : Fin a, src (ix3 k r w) := by
  rw [Ideal.multiReduction_add_single]
  refine Finset.sum_congr rfl fun k _ => ?_
  exact congrArg src (funext fun d => Fin.ext (by match d with | ⟨0, _⟩ => rfl | ⟨1, _⟩ => rfl | ⟨2, _⟩ => rfl))

/-- A vector maximum over the leading axis of [a, b, c], read at (r, w): the fold of `max` from the accumulator's
    value over the leading coordinate. -/
theorem multiReduction_max_lead_apply {a b c : Nat} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.maximumf.neutral φ hφ) (r : Fin b) (w : Fin c) :
    multiReduction .maximumf [0] ⟨2, ![b, c]⟩ src acc h hφ hacc (ix2 r w)
      = (Finset.univ : Finset (Fin a)).fold max (Ideal.ofBits φ acc) (fun k => src (ix3 k r w)) := by
  rw [Ideal.multiReduction_maximumf_single]
  have hf : (src ∘ h.lift (ix2 r w)) = fun k : Fin a => src (ix3 k r w) :=
    funext fun k => congrArg src (funext fun d => Fin.ext (by match d with | ⟨0, _⟩ => rfl | ⟨1, _⟩ => rfl | ⟨2, _⟩ => rfl))
  exact congrArg (fun f => Finset.fold max (Ideal.ofBits φ acc) f (Finset.univ : Finset (Fin a))) hf

/-- A vector sum over the last axis of [a, b, c], read at (p, n): the sum over the last coordinate. -/
theorem multiReduction_add_last3_apply {a b c : Nat} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (n : Fin b) :
    multiReduction .add [2] ⟨2, ![a, b]⟩ src acc h hφ hacc (ix2 p n) = ∑ k : Fin c, src (ix3 p n k) := by
  rw [Ideal.multiReduction_add_single]
  refine Finset.sum_congr rfl fun k _ => ?_
  exact congrArg src (funext fun d => Fin.ext (by match d with | ⟨0, _⟩ => rfl | ⟨1, _⟩ => rfl | ⟨2, _⟩ => rfl))

/-- A host maximum over axis 1 of [a, b, c, d], read at (p, r, w): the fold of `max` from the initial value over
    the coordinate of axis 1. -/
theorem hostReduce_max_axis1_apply {a b c d : Nat} {u : Shape} (x : FVec Ideal ⟨4, ![a, b, c, d]⟩ φ)
    (init : u.Idx → Ideal φ) (h' : (⟨4, ![a, b, c, d]⟩ : Shape).ReducesTo [1] ⟨3, ![a, c, d]⟩)
    (h : (⟨4, ![a, b, c, d]⟩ : Shape).Reduces [1] ⟨3, ![a, c, d]⟩) (hu : 0 < u.numel)
    (p : Fin a) (r : Fin c) (w : Fin d) :
    Host.reduce FloatOps.maximumf x init h' hu (ix3 p r w)
      = (Finset.univ : Finset (Fin b)).fold max (init (Shape.Idx.first hu)) (fun k => x (ix4 p k r w)) := by
  rw [Host.reduce_eq_fold_single FloatOps.maximumf x init h' h hu]
  have hf : (x ∘ h.lift (ix3 p r w)) = fun k : Fin b => x (ix4 p k r w) :=
    funext fun k => congrArg x (funext fun e => Fin.ext (by
      match e with | ⟨0, _⟩ => rfl | ⟨1, _⟩ => rfl | ⟨2, _⟩ => rfl | ⟨3, _⟩ => rfl))
  exact congrArg (fun f => Finset.fold max (init (Shape.Idx.first hu)) f (Finset.univ : Finset (Fin b))) hf

/-- An index of [a, b, c, d] drops, over its two trailing axes, to its two leading coordinates. -/
theorem drop_trailing_two4 {a b c d : Nat} (h : (⟨4, ![a, b, c, d]⟩ : Shape).ReducesTo [2, 3] ⟨2, ![a, b]⟩)
    (i : (⟨4, ![a, b, c, d]⟩ : Shape).Idx) : h.drop i = ix2 (i 0) (i 1) := by
  funext e
  match e with
  | ⟨0, _⟩ => exact Fin.ext (h.drop_apply_val_of_eq i ⟨0, Nat.zero_lt_two⟩ 0 Nat.zero_lt_two rfl)
  | ⟨1, _⟩ => exact Fin.ext (h.drop_apply_val_of_eq i ⟨1, Nat.one_lt_two⟩ 1 Nat.one_lt_two rfl)

/-- A host sum over the two trailing axes of [a, b, c, d], read at (p, q): the initial value plus the double sum
    over the two trailing coordinates. -/
theorem hostReduceAdd_trailing_two4_apply {a b c d : Nat}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ n : Fin c, ∑ k : Fin d, x (ix4 p q n k) := by
  unfold Ideal.hostReduceAdd
  refine congrArg (init + ·) ?_
  rw [← Finset.sum_product' (Finset.univ : Finset (Fin c)) (Finset.univ : Finset (Fin d)) fun n k => x (ix4 p q n k)]
  refine Finset.sum_nbij' (fun i => (i 2, i 3)) (fun z => ix4 p q z.1 z.2) ?_ ?_ ?_ ?_ ?_
  · intro i _; exact Finset.mem_product.2 ⟨Finset.mem_univ _, Finset.mem_univ _⟩
  · intro z _
    refine Finset.mem_filter.2 ⟨Finset.mem_univ _, ?_⟩
    rw [drop_trailing_two4]
    rfl
  · intro i hi
    have hj := (Finset.mem_filter.1 hi).2
    rw [drop_trailing_two4] at hj
    have h0 : i 0 = p := congrFun hj 0
    have h1 : i 1 = q := congrFun hj 1
    funext e
    match e with
    | ⟨0, _⟩ => exact h0.symm
    | ⟨1, _⟩ => exact h1.symm
    | ⟨2, _⟩ => rfl
    | ⟨3, _⟩ => rfl
  · intro z _; rfl
  · intro i hi
    have hj := (Finset.mem_filter.1 hi).2
    rw [drop_trailing_two4] at hj
    have h0 : i 0 = p := congrFun hj 0
    have h1 : i 1 = q := congrFun hj 1
    refine congrArg x ?_
    funext e
    match e with
    | ⟨0, _⟩ => exact h0
    | ⟨1, _⟩ => exact h1
    | ⟨2, _⟩ => rfl
    | ⟨3, _⟩ => rfl

section Layout
variable {α : Type}

/-- An array [a, b] given a trailing unit axis reads, at (p, n, ·), its entry (p, n). -/
theorem shapeCast_ab_ab1_apply {a b : Nat} (x : (⟨2, ![a, b]⟩ : Shape).Idx → α)
    (h : (⟨2, ![a, b]⟩ : Shape).ShapeCasts ⟨3, ![a, b, 1]⟩) (p : Fin a) (n : Fin b) (z : Fin 1) :
    shapeCast ⟨3, ![a, b, 1]⟩ x h (ix3 p n z) = x (ix2 p n) :=
  shapeCast_apply x h _ _ (by
    have hz : z.val = 0 := by omega
    rw [Shape.rowMajor_val_three, Shape.rowMajor_val_two]
    show p.val * b + n.val = (p.val * b + n.val) * 1 + z.val
    rw [hz, Nat.mul_one, Nat.add_zero])

/-- An array [b, c] laid as [1, b, c] and broadcast along a new leading axis to [a, b, c] reads, at (k, r, w), its
    entry (r, w). -/
theorem leadBroadcast_apply {a b c : Nat} (y : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (k : Fin a) (r : Fin b) (w : Fin c) :
    broadcastTo ⟨3, ![a, b, c]⟩ (shapeCast ⟨3, ![1, b, c]⟩ y hc) hb (ix3 k r w) = y (ix2 r w) := by
  refine (broadcastTo_apply _ hb (ix3 k r w) (ix3 (0 : Fin 1) r w) (fun e => ?_)).trans
    (shapeCast_ab_1ab_apply y hc 0 r w)
  match e with
  | ⟨0, _⟩ => show (0 : Nat) = if (1 : Nat) = 1 then 0 else k.val; rw [if_pos rfl]
  | ⟨1, _⟩ =>
    show r.val = if b = 1 then 0 else r.val
    split_ifs with hb1
    · have := r.isLt; omega
    · rfl
  | ⟨2, _⟩ =>
    show w.val = if c = 1 then 0 else w.val
    split_ifs with hc1
    · have := w.isLt; omega
    · rfl

end Layout

end Cert.Lib.AxisFolds

end
-- ==== Proof.LibAxisSums.lean ====
/-
  Sums along axes of small-rank arrays, read at coordinates, at the ideal values (floats are extended reals,
  every sum exact). For any extents and any float type:

  * a vector sum over the MIDDLE axis of a rank-3 array [a, b, c] into [a, c], at (p, w), is the sum over
    n < b of the array at (p, n, w) (`multiReduction_add_mid_apply`);
  * a vector sum over the LAST axis of a rank-2 array [a, b] into [a], at p, is the sum over k < b of the array
    at (p, k) (`multiReduction_add_last_apply`);
  * a host sum over the TWO TRAILING axes of a rank-3 array [a, b, c] into [a], at p, is the initial value plus
    the double sum over n < b and k < c of the array at (p, n, k) (`hostReduceAdd_trailing_two_apply`): the
    indices that drop to p are exactly the (p, n, k), in bijection with the pairs (n, k).
-/
import Idealize.ShloMosaic.PureOps.Ideal.Laws
import Idealize.ShloMosaic.Lib.ValueIdx

noncomputable section

namespace Cert.Lib.AxisSums

open Idealize.ShloMosaic Idealize.ShloMosaic.ValueIdx

variable {φ : FTy}

/-- A vector sum over the middle axis of [a, b, c], read at (p, w): the sum over the middle coordinate. -/
theorem multiReduction_add_mid_apply {a b c : Nat} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (w : Fin c) :
    multiReduction .add [1] ⟨2, ![a, c]⟩ src acc h hφ hacc (ix2 p w) = ∑ n : Fin b, src (ix3 p n w) := by
  rw [Ideal.multiReduction_add_single]
  refine Finset.sum_congr rfl fun n _ => ?_
  exact congrArg src (funext fun d => Fin.ext (by match d with | ⟨0, _⟩ => rfl | ⟨1, _⟩ => rfl | ⟨2, _⟩ => rfl))

/-- A vector sum over the last axis of [a, b], read at p: the sum over the last coordinate. -/
theorem multiReduction_add_last_apply {a b : Nat} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun d => Fin.ext (by match d with | ⟨0, _⟩ => rfl | ⟨1, _⟩ => rfl))

/-- An index of [a, b, c] drops, over its two trailing axes, to its leading coordinate. -/
theorem drop_trailing_two {a b c : Nat} (h : (⟨3, ![a, b, c]⟩ : Shape).ReducesTo [1, 2] ⟨1, ![a]⟩)
    (i : (⟨3, ![a, b, c]⟩ : Shape).Idx) : h.drop i = ix1 (i 0) := by
  funext d
  match d with
  | ⟨0, _⟩ => exact Fin.ext (h.drop_apply_val_of_eq i ⟨0, Nat.zero_lt_one⟩ 0 (Nat.zero_lt_one) rfl)

/-- A host sum over the two trailing axes of [a, b, c], read at p: the initial value plus the double sum over
    the two trailing coordinates. -/
theorem hostReduceAdd_trailing_two_apply {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ n : Fin b, ∑ k : Fin c, x (ix3 p n k) := by
  unfold Ideal.hostReduceAdd
  refine congrArg (init + ·) ?_
  rw [← Finset.sum_product' (Finset.univ : Finset (Fin b)) (Finset.univ : Finset (Fin c)) fun n k => x (ix3 p n k)]
  refine Finset.sum_nbij' (fun i => (i 1, i 2)) (fun q => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    rw [drop_trailing_two]
    rfl
  · intro i hi
    have hj := (Finset.mem_filter.1 hi).2
    rw [drop_trailing_two] at hj
    have h0 : i 0 = p := congrFun hj 0
    funext d
    match d with
    | ⟨0, _⟩ => exact h0.symm
    | ⟨1, _⟩ => rfl
    | ⟨2, _⟩ => rfl
  · intro q _; rfl
  · intro i hi
    have hj := (Finset.mem_filter.1 hi).2
    rw [drop_trailing_two] at hj
    have h0 : i 0 = p := congrFun hj 0
    refine congrArg x ?_
    funext d
    match d with
    | ⟨0, _⟩ => exact h0
    | ⟨1, _⟩ => rfl
    | ⟨2, _⟩ => rfl

end Cert.Lib.AxisSums

end
-- ==== Proof.Body.lean ====
/-
  The body's arithmetic at the ideal values, read entry by entry.

  One run of the body sees a tile of scores `x` of shape [1, 19, 128, 512] (19 classes, 128 rows, 512 columns of one
  image) and the tile's labels of shape [1, 128, 512].  For the pixel at row `r`, column `w` of the tile:

  * the probability block at (c, r, w) is the softmax probability of class `c` for the column of scores
    `k ↦ x (0, k, r, w)`: the maximum over the classes is a fold of `max` from −∞ along the leading axis, the
    normaliser a sum along it, both laid back over the classes by a broadcast;
  * the one-hot block at (c, r, w) is 1 if the label of the pixel is the word of `c` and 0 otherwise (a comparison
    of the class counter with the label, widened and converted);
  * each running block, at class `c`, gains the sum over the 128 rows of the sum over the 512 columns of the summed
    block at (c, ·, ·): a sum along the last axis, kept as a unit axis, then a sum along the middle axis.
-/
import proofs.«157776_j17343077941338_2_alg».proof.Proof.Gen.KernelIdeal.Skeleton
import proofs.«157776_j17343077941338_2_alg».proof.Proof.Softmax
import proofs.«157776_j17343077941338_2_alg».proof.Proof.LibAxisFolds
import proofs.«157776_j17343077941338_2_alg».proof.Proof.LibAxisSums
import Idealize.ShloMosaic.Lib.ValueLayout

noncomputable section

namespace Cert.KernelIdeal.Body

open Cert.KernelIdeal Cert.KernelIdeal.Gen Cert.Tversky Cert.Lib.AxisFolds Cert.Lib.AxisSums
open Idealize.ShloMosaic Idealize.ShloMosaic.ValueIdx

/-- The stable softmax of a block [19, 128, 512] along its leading axis, read at (c, r, w): the softmax
    probability of class `c` for the column `k ↦ v (k, r, w)`. -/
theorem softmaxBlock_apply (v : FVec Ideal S19x128x512 .f32)
    (hr : S19x128x512.Reduces [0] S128x512) (hφ : FKind.Formats .f32)
    (ham : (0xFF800000#32 : BitVec 32) = FKind.maximumf.neutral .f32 hφ)
    (haa : (0x00000000#32 : BitVec 32) = FKind.add.neutral .f32 hφ)
    (hc : S128x512.ShapeCasts S1x128x512) (hb : S1x128x512.Broadcasts S19x128x512)
    (c : Fin 19) (r : Fin 128) (w : Fin 512) :
    divf (exp (subf v (broadcastTo S19x128x512 (shapeCast S1x128x512
        (multiReduction .maximumf [0] S128x512 v 0xFF800000#32 hr hφ ham) hc) hb)))
      (broadcastTo S19x128x512 (shapeCast S1x128x512 (multiReduction .add [0] S128x512
        (exp (subf v (broadcastTo S19x128x512 (shapeCast S1x128x512
          (multiReduction .maximumf [0] S128x512 v 0xFF800000#32 hr hφ ham) hc) hb))) 0x00000000#32 hr hφ haa) hc) hb)
      (ix3 c r w)
    = prob (fun k => v (ix3 k r w)) c := by
  generalize hM : broadcastTo S19x128x512 (shapeCast S1x128x512
    (multiReduction .maximumf [0] S128x512 v 0xFF800000#32 hr hφ ham) hc) hb = Mb
  have hMb : ∀ k : Fin 19, Mb (ix3 k r w) = smax (fun k => v (ix3 k r w)) := fun k => by
    rw [← hM]
    exact (leadBroadcast_apply _ hc hb k r w).trans (multiReduction_max_lead_apply v _ hr hφ ham r w)
  generalize hE : exp (subf v Mb) = E
  have hEk : ∀ k : Fin 19, E (ix3 k r w) = sexp (fun k => v (ix3 k r w)) k := fun k => by
    rw [← hE]
    show Ideal.exp (v (ix3 k r w) - Mb (ix3 k r w)) = _
    rw [hMb k]
    rfl
  show Ideal.div (E (ix3 c r w)) (broadcastTo S19x128x512 (shapeCast S1x128x512
    (multiReduction .add [0] S128x512 E 0x00000000#32 hr hφ haa) hc) hb (ix3 c r w)) = _
  rw [hEk c, leadBroadcast_apply _ hc hb c r w, multiReduction_add_lead_apply E _ hr hφ haa r w]
  unfold prob
  exact congrArg (Ideal.div _) (Finset.sum_congr rfl fun k _ => hEk k)

/-- The probability block of a tile of scores, at (c, r, w). -/
theorem pay6_apply (x0 : Vec Ideal S1x19x128x512 .f32) (c : Fin 19) (r : Fin 128) (w : Fin 512) :
    k0_pay6 (F := Ideal) x0 (ix3 c r w) = prob (fun k => x0 (ix4 (0 : Fin 1) k r w)) c :=
  (softmaxBlock_apply _ _ _ _ _ _ _ c r w).trans
    (congrArg (fun f => prob f c) (funext fun k => shapeCast_1abc_abc_apply x0 _ k r w))

/-- A label compared with a class word, widened and converted: the one-hot value. -/
theorem hot_of_cmp (a l : BitVec 32) :
    FloatOps.sitofp (F := Ideal) .f32 ((IntOp.cmpi .eq a l).setWidth 32) = (if l = a then (1 : EReal) else 0) := by
  show ((((BitVec.ofBool (a == l)).setWidth 32).toInt : ℝ) : EReal) = _
  by_cases h : l = a
  · subst h
    have e : ((BitVec.ofBool true).setWidth 32).toInt = 1 := by decide
    rw [beq_self_eq_true, e, if_pos rfl]
    simp
  · have hne : (a == l) = false := by rw [beq_eq_false_iff_ne]; exact fun e => h e.symm
    have e : ((BitVec.ofBool false).setWidth 32).toInt = 0 := by decide
    rw [hne, e, if_neg h]
    simp

/-- The one-hot block of a tile of labels, at (c, r, w). -/
theorem pay7_apply (x1 : Vec Ideal S1x128x512 .i32) (c : Fin 19) (r : Fin 128) (w : Fin 512) :
    k0_pay7 (F := Ideal) x1 (ix3 c r w) = hot (x1 (ix3 (0 : Fin 1) r w)) c := by
  show FloatOps.sitofp (F := Ideal) .f32 ((IntOp.cmpi .eq (iota .tc S19x128x512 32 [0] _ (ix3 c r w))
    (broadcastTo S19x128x512 (shapeCast S1x128x512 (shapeCast S128x512 x1 _) _) _ (ix3 c r w))).setWidth 32) = _
  rw [iota_single_apply, leadBroadcast_apply, shapeCast_1ab_ab_apply, hot_of_cmp]
  rfl

/-- The product block, at (c, r, w). -/
theorem pay8_apply (x0 : Vec Ideal S1x19x128x512 .f32) (x1 : Vec Ideal S1x128x512 .i32) (c : Fin 19) (r : Fin 128)
    (w : Fin 512) :
    k0_pay8 (F := Ideal) x0 x1 (ix3 c r w)
      = prob (fun k => x0 (ix4 (0 : Fin 1) k r w)) c * hot (x1 (ix3 (0 : Fin 1) r w)) c := by
  show k0_pay6 (F := Ideal) x0 (ix3 c r w) * k0_pay7 (F := Ideal) x1 (ix3 c r w) = _
  rw [pay6_apply, pay7_apply]

/-- A running block [1, 19, 1] plus the sums of a block [19, 128, 512] over its rows and columns, at class `c`. -/
theorem blockSum_apply (v : FVec Ideal S19x128x512 .f32) (acc : Vec Ideal S1x19x1 .f32)
    (h1 : S1x19x1.ShapeCasts S19x1) (h2 : S19x128x512.Reduces [2] S19x128) (hφ : FKind.Formats .f32)
    (hacc : (0x00000000#32 : BitVec 32) = FKind.add.neutral .f32 hφ) (h3 : S19x128.ShapeCasts S19x128x1)
    (h4 : S19x128x1.Reduces [1] S19x1) (h5 : S19x1.ShapeCasts S19x1x1) (h6 : S19x1x1.ShapeCasts S19x1)
    (h7 : S19x1.ShapeCasts S1x19x1) (u : Fin 1) (c : Fin 19) (z : Fin 1) :
    shapeCast S1x19x1 (addf (shapeCast S19x1 acc h1) (shapeCast S19x1 (shapeCast S19x1x1
      (multiReduction .add [1] S19x1 (shapeCast S19x128x1
        (multiReduction .add [2] S19x128 v 0x00000000#32 h2 hφ hacc) h3) 0x00000000#32 h4 hφ hacc) h5) h6)) h7 (ix3 u c z)
    = acc (ix3 (0 : Fin 1) c z) + ∑ n : Fin 128, ∑ k : Fin 512, v (ix3 c n k) := by
  refine (shapeCast_ab_1ab_apply _ h7 u c z).trans ?_
  refine congrArg₂ (· + ·) (shapeCast_1ab_ab_apply acc h1 c z) ?_
  refine (congrFun (shapeCast_shapeCast _ h5 h6) (ix2 c z)).trans ?_
  refine (multiReduction_add_mid_apply _ _ h4 hφ hacc c z).trans ?_
  refine Finset.sum_congr rfl fun n _ => ?_
  refine (shapeCast_ab_ab1_apply _ h3 c n z).trans ?_
  exact multiReduction_add_last3_apply v _ h2 hφ hacc c n

/-- The count block: what the tile before left, plus the tile's one-hot sums. -/
theorem pay1_apply (v : FVec Ideal S19x128x512 .f32) (acc : Vec Ideal S1x19x1 .f32) (u : Fin 1) (c : Fin 19) (z : Fin 1) :
    k0_pay1 (F := Ideal) v acc (ix3 u c z) = acc (ix3 (0 : Fin 1) c z) + ∑ n : Fin 128, ∑ k : Fin 512, v (ix3 c n k) :=
  blockSum_apply v acc _ _ _ _ _ _ _ _ _ u c z

/-- The product-sum block likewise. -/
theorem pay2_apply (v : FVec Ideal S19x128x512 .f32) (acc : Vec Ideal S1x19x1 .f32) (u : Fin 1) (c : Fin 19) (z : Fin 1) :
    k0_pay2 (F := Ideal) v acc (ix3 u c z) = acc (ix3 (0 : Fin 1) c z) + ∑ n : Fin 128, ∑ k : Fin 512, v (ix3 c n k) :=
  blockSum_apply v acc _ _ _ _ _ _ _ _ _ u c z

/-- The probability-sum block likewise, over the probability block of the tile's scores. -/
theorem pay9_apply (x0 : Vec Ideal S1x19x128x512 .f32) (acc : Vec Ideal S1x19x1 .f32) (u : Fin 1) (c : Fin 19) (z : Fin 1) :
    k0_pay9 (F := Ideal) x0 acc (ix3 u c z)
      = acc (ix3 (0 : Fin 1) c z) + ∑ n : Fin 128, ∑ k : Fin 512, k0_pay6 (F := Ideal) x0 (ix3 c n k) :=
  blockSum_apply (k0_pay6 x0) acc _ _ _ _ _ _ _ _ _ u c z

/-- The zero block a first tile starts from is 0 at every entry. -/
theorem zero_apply (h : S19x1.ShapeCasts S1x19x1) (u : Fin 1) (c : Fin 19) (z : Fin 1) :
    shapeCast S1x19x1 (broadcast S19x1 (Scalar.ofBits (F := Ideal) .f32 0x00000000#32)) h (ix3 u c z) = 0 :=
  (shapeCast_ab_1ab_apply _ h u c z).trans Ideal.ofBits_zero_f32

theorem pay3_apply (u : Fin 1) (c : Fin 19) (z : Fin 1) : k0_pay3 (F := Ideal) (ix3 u c z) = 0 := zero_apply _ u c z
theorem pay4_apply (u : Fin 1) (c : Fin 19) (z : Fin 1) : k0_pay4 (F := Ideal) (ix3 u c z) = 0 := zero_apply _ u c z
theorem pay5_apply (u : Fin 1) (c : Fin 19) (z : Fin 1) : k0_pay5 (F := Ideal) (ix3 u c z) = 0 := zero_apply _ u c z

end Cert.KernelIdeal.Body

end
-- ==== Proof.Pixel.lean ====
/-
  The three per-class sums of the loss, as functions of the two argument arrays.

  `X` holds the scores, shape [8, 19, 512, 512] (image, class, row, column); `T` the labels, shape [8, 512, 512].
  For image `b` and class `c`, at the pixel (h, w): `pP` is the softmax probability of `c` for the pixel's column of
  scores, `pO` the one-hot value of `c` for the pixel's label.  The kernel accumulates `Σ pP`, `Σ pO` and `Σ pP·pO`
  over the pixels; the reference sums `pP·pO`, `(1 − pO)·pP` and `pO·(1 − pP)`.  When the scores are real numbers
  the two triples determine each other (`fp_eq`, `fn_eq`).
-/
import proofs.«157776_j17343077941338_2_alg».proof.Proof.Softmax
import Idealize.ShloMosaic.Lib.ValueIdx

noncomputable section

namespace Cert.Tversky

open Idealize.ShloMosaic Idealize.ShloMosaic.ValueIdx

abbrev Scores : Type := (⟨4, ![8, 19, 512, 512]⟩ : Shape).Idx → EReal
abbrev Labels : Type := (⟨3, ![8, 512, 512]⟩ : Shape).Idx → BitVec 32

/-- The probability of class `c` at pixel (h, w) of image `b`. -/
def pP (X : Scores) (b : Fin 8) (c : Fin 19) (h w : Fin 512) : EReal := prob (fun k => X (ix4 b k h w)) c

/-- The one-hot value of class `c` at pixel (h, w) of image `b`. -/
def pO (T : Labels) (b : Fin 8) (c : Fin 19) (h w : Fin 512) : EReal := hot (T (ix3 b h w)) c

/-- The sum of the probabilities of class `c` over the pixels of image `b`. -/
def sumP (X : Scores) (b : Fin 8) (c : Fin 19) : EReal := ∑ h : Fin 512, ∑ w : Fin 512, pP X b c h w

/-- The number of pixels of image `b` labelled `c`. -/
def sumO (T : Labels) (b : Fin 8) (c : Fin 19) : EReal := ∑ h : Fin 512, ∑ w : Fin 512, pO T b c h w

/-- The sum of the probabilities of class `c` over the pixels of image `b` labelled `c`. -/
def sumPO (X : Scores) (T : Labels) (b : Fin 8) (c : Fin 19) : EReal :=
  ∑ h : Fin 512, ∑ w : Fin 512, pP X b c h w * pO T b c h w

/-- Real scores give real probabilities. -/
theorem pP_real (X : Scores) (hX : ∀ i, ∃ r : ℝ, X i = r) (b : Fin 8) (c : Fin 19) (h w : Fin 512) :
    ∃ r : ℝ, pP X b c h w = r := prob_real _ (fun k => hX _) c

theorem pO_real (T : Labels) (b : Fin 8) (c : Fin 19) (h w : Fin 512) : ∃ r : ℝ, pO T b c h w = r := hot_real _ c

/-- The false positives: the probability mass off the labelled pixels. -/
theorem fp_eq (X : Scores) (T : Labels) (hX : ∀ i, ∃ r : ℝ, X i = r) (b : Fin 8) (c : Fin 19) :
    (∑ h : Fin 512, ∑ w : Fin 512, ((1 : EReal) - pO T b c h w) * pP X b c h w) = sumP X b c - sumPO X T b c :=
  sum_compl_mul (fun h w => pP X b c h w) (fun h w => pO T b c h w) (fun h w => pP_real X hX b c h w)
    (fun h w => pO_real T b c h w)

/-- The false negatives: the labelled pixels' missing probability. -/
theorem fn_eq (X : Scores) (T : Labels) (hX : ∀ i, ∃ r : ℝ, X i = r) (b : Fin 8) (c : Fin 19) :
    (∑ h : Fin 512, ∑ w : Fin 512, pO T b c h w * ((1 : EReal) - pP X b c h w)) = sumO T b c - sumPO X T b c :=
  sum_mul_compl (fun h w => pP X b c h w) (fun h w => pO T b c h w) (fun h w => pP_real X hX b c h w)
    (fun h w => pO_real T b c h w)

end Cert.Tversky

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.Accumulate.lean ====
/-
  The three running blocks, grid point by grid point, and what they hold when an image is finished.

  The grid has 32 points: point `4b + j` works on row tile `j` (rows 128 j … 128 j + 127) of image `b`.  A result
  block's index depends on the image only, so it stays in place over the four tiles of an image and is written
  back after the fourth.  At tile 0 a block restarts from zero; at each tile it gains the tile's sums.  After tile 3
  it therefore holds `(((0 + A₀) + A₁) + A₂) + A₃`, the `A_j` the sums over tile `j`; a tile's block of scores or
  labels is the argument array read at image `b`, rows `128 j + r`; and the four tiles' row ranges cut the 512 rows
  into consecutive blocks — so the written-back block holds the sums over all pixels of the image.
-/
import proofs.«157776_j17343077941338_2_alg».proof.Proof.Gen.KernelIdeal.Frame
import proofs.«157776_j17343077941338_2_alg».proof.Proof.Pieces
import proofs.«157776_j17343077941338_2_alg».proof.Proof.Body
import proofs.«157776_j17343077941338_2_alg».proof.Proof.Pixel
import proofs.«157776_j17343077941338_2_alg».proof.Proof.LibSumBlocks
import Idealize.ShloMosaic.Lib.Pipeline.Value

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.Tversky
open Idealize.ShloMosaic.ValueIdx

variable (m : (ℓ : Loc nD τ sig) → Buf (Elt Ideal) ℓ) (dv : Dev nD)

/-- The score array and the label array as the program finds them. -/
abbrev X : Scores := m ((dv : Thread nD τ).loc main_arg0)
abbrev T : Cert.Tversky.Labels := m ((dv : Thread nD τ).loc main_arg1)

theorem h512 : 4 * 128 = 512 := rfl

/-! ## Which block each window reads or writes at a point -/

theorem idx_in0 : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, _)

theorem idx_in1 : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)

theorem idx_out2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

theorem idx_out3 : ∀ t : Fin cfg0.N, win0_3.index t (0 : Fin 3) = t.val / 4 ∧ win0_3.index t (1 : Fin 3) = 0
    ∧ win0_3.index t (2 : Fin 3) = 0 :=
  (by decide +kernel : ∀ t : Fin grid0.N, _)

theorem idx_out4 : ∀ t : Fin cfg0.N, win0_4.index t (0 : Fin 3) = t.val / 4 ∧ win0_4.index t (1 : Fin 3) = 0
    ∧ win0_4.index t (2 : Fin 3) = 0 :=
  (by decide +kernel : ∀ t : Fin grid0.N, _)

/-! ## A tile's blocks are the argument arrays at the image's rows -/

/-- The scores' block at point `4b + j`, at (·, k, r, w): the score array at (b, k, 128 j + r, w). -/
theorem blk0_apply (t : Fin cfg0.N) (b : Fin 8) (j : Fin 4) (ht : t.val = 4 * b.val + j.val) (u : Fin 1) (k : Fin 19)
    (r : Fin 128) (w : Fin 512) :
    (iblk m dv 0 t : Vec Ideal S1x19x128x512 .f32) (ix4 u k r w) = X m dv (ix4 b k (SumBlocks.idx h512 j r) w) := by
  obtain ⟨e0, e1, e2, e3⟩ := idx_in0 t
  have hu : u.val = 0 := by omega
  have hj := j.isLt
  unfold iblk
  rw [View.read_apply]
  show m ((dv : Thread nD τ).loc main_arg0) _ = m ((dv : Thread nD τ).loc main_arg0) _
  refine congrArg (m ((dv : Thread nD τ).loc main_arg0)) ?_
  funext a; apply Fin.ext
  match a with
  | ⟨0, _⟩ => show win0_0.index t (0 : Fin 4) * 1 + 1 * u.val = b.val; rw [e0]; omega
  | ⟨1, _⟩ => show win0_0.index t (1 : Fin 4) * 19 + 1 * k.val = k.val; rw [e1]; omega
  | ⟨2, _⟩ => show win0_0.index t (2 : Fin 4) * 128 + 1 * r.val = j.val * 128 + r.val; rw [e2]; omega
  | ⟨3, _⟩ => show win0_0.index t (3 : Fin 4) * 512 + 1 * w.val = w.val; rw [e3]; omega

/-- The labels' block at point `4b + j`, at (·, r, w): the label array at (b, 128 j + r, w). -/
theorem blk1_apply (t : Fin cfg0.N) (b : Fin 8) (j : Fin 4) (ht : t.val = 4 * b.val + j.val) (u : Fin 1)
    (r : Fin 128) (w : Fin 512) :
    (iblk m dv 1 t : Vec Ideal S1x128x512 .i32) (ix3 u r w) = T m dv (ix3 b (SumBlocks.idx h512 j r) w) := by
  obtain ⟨e0, e1, e2⟩ := idx_in1 t
  have hu : u.val = 0 := by omega
  have hj := j.isLt
  unfold iblk
  rw [View.read_apply]
  show m ((dv : Thread nD τ).loc main_arg1) _ = m ((dv : Thread nD τ).loc main_arg1) _
  refine congrArg (m ((dv : Thread nD τ).loc main_arg1)) ?_
  funext a; apply Fin.ext
  match a with
  | ⟨0, _⟩ => show win0_1.index t (0 : Fin 3) * 1 + 1 * u.val = b.val; rw [e0]; omega
  | ⟨1, _⟩ => show win0_1.index t (1 : Fin 3) * 128 + 1 * r.val = j.val * 128 + r.val; rw [e1]; omega
  | ⟨2, _⟩ => show win0_1.index t (2 : Fin 3) * 512 + 1 * w.val = w.val; rw [e2]; omega

/-! ## A tile's sums -/

/-- The sums over the tile of point `n`, per class: of the probabilities, of the one-hot values, of their products. -/
def tS (n : ℕ) (h : n < cfg0.N) (c : Fin 19) : EReal :=
  ∑ r : Fin 128, ∑ w : Fin 512, k0_pay6 (F := Ideal) (iblk m dv 0 ⟨n, h⟩) (ix3 c r w)
def tN (n : ℕ) (h : n < cfg0.N) (c : Fin 19) : EReal :=
  ∑ r : Fin 128, ∑ w : Fin 512, k0_pay7 (F := Ideal) (iblk m dv 1 ⟨n, h⟩) (ix3 c r w)
def tT (n : ℕ) (h : n < cfg0.N) (c : Fin 19) : EReal :=
  ∑ r : Fin 128, ∑ w : Fin 512, k0_pay8 (F := Ideal) (iblk m dv 0 ⟨n, h⟩) (iblk m dv 1 ⟨n, h⟩) (ix3 c r w)

/-- In pixel terms: the tile of point `4b + j` is rows `128 j + r` of image `b`. -/
theorem tS_eq (n : ℕ) (h : n < cfg0.N) (c : Fin 19) (b : Fin 8) (j : Fin 4) (hn : n = 4 * b.val + j.val) :
    tS m dv n h c = ∑ r : Fin 128, ∑ w : Fin 512, pP (X m dv) b c (SumBlocks.idx h512 j r) w := by
  unfold tS
  refine Finset.sum_congr rfl fun r _ => Finset.sum_congr rfl fun w _ => ?_
  refine (Body.pay6_apply (iblk m dv 0 ⟨n, h⟩) c r w).trans ?_
  unfold pP
  exact congrArg (fun f => prob f c) (funext fun k => blk0_apply m dv ⟨n, h⟩ b j hn 0 k r w)

theorem tN_eq (n : ℕ) (h : n < cfg0.N) (c : Fin 19) (b : Fin 8) (j : Fin 4) (hn : n = 4 * b.val + j.val) :
    tN m dv n h c = ∑ r : Fin 128, ∑ w : Fin 512, pO (T m dv) b c (SumBlocks.idx h512 j r) w := by
  unfold tN
  refine Finset.sum_congr rfl fun r _ => Finset.sum_congr rfl fun w _ => ?_
  refine (Body.pay7_apply (iblk m dv 1 ⟨n, h⟩) c r w).trans ?_
  unfold pO
  exact congrArg (fun l => hot l c) (blk1_apply m dv ⟨n, h⟩ b j hn 0 r w)

theorem tT_eq (n : ℕ) (h : n < cfg0.N) (c : Fin 19) (b : Fin 8) (j : Fin 4) (hn : n = 4 * b.val + j.val) :
    tT m dv n h c = ∑ r : Fin 128, ∑ w : Fin 512,
      pP (X m dv) b c (SumBlocks.idx h512 j r) w * pO (T m dv) b c (SumBlocks.idx h512 j r) w := by
  unfold tT
  refine Finset.sum_congr rfl fun r _ => Finset.sum_congr rfl fun w _ => ?_
  refine (Body.pay8_apply (iblk m dv 0 ⟨n, h⟩) (iblk m dv 1 ⟨n, h⟩) c r w).trans ?_
  unfold pP pO
  exact congrArg₂ (· * ·)
    (congrArg (fun f => prob f c) (funext fun k => blk0_apply m dv ⟨n, h⟩ b j hn 0 k r w))
    (congrArg (fun l => hot l c) (blk1_apply m dv ⟨n, h⟩ b j hn 0 r w))

/-! ## The running blocks -/

/-- The running blocks after point `n`, at class `c`. -/
def valS (n : ℕ) (h : n < cfg0.N) (c : Fin 19) : EReal := (outsAt0 m dv n h).1 (ix3 (0 : Fin 1) c (0 : Fin 1))
def valN (n : ℕ) (h : n < cfg0.N) (c : Fin 19) : EReal := (outsAt0 m dv n h).2.1 (ix3 (0 : Fin 1) c (0 : Fin 1))
def valT (n : ℕ) (h : n < cfg0.N) (c : Fin 19) : EReal := (outsAt0 m dv n h).2.2 (ix3 (0 : Fin 1) c (0 : Fin 1))

/-- At the first tile of an image the blocks restart: zero plus the tile's sums. -/
theorem stepA (n : ℕ) (h : n < cfg0.N) (h0 : n % 4 = 0) (c : Fin 19) :
    valS m dv n h c = 0 + tS m dv n h c ∧ valN m dv n h c = 0 + tN m dv n h c
      ∧ valT m dv n h c = 0 + tT m dv n h c := by
  have e := outsAt0_A m dv ⟨n, h⟩ h0
  refine ⟨?_, ?_, ?_⟩
  · refine (congrArg (fun p : Vec Ideal S1x19x1 .f32 × Vec Ideal S1x19x1 .f32 × Vec Ideal S1x19x1 .f32 =>
      p.1 (ix3 (0 : Fin 1) c (0 : Fin 1))) e).trans ?_
    refine (congrFun (Pieces.out_A_2 (F := Ideal) dv (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0)
      (iblk m dv 0 ⟨n, h⟩) (iblk m dv 1 ⟨n, h⟩)) (ix3 (0 : Fin 1) c (0 : Fin 1))).trans ?_
    refine (Body.pay9_apply (iblk m dv 0 ⟨n, h⟩) (k0_pay3 (F := Ideal)) 0 c 0).trans ?_
    rw [Body.pay3_apply]
    rfl
  · refine (congrArg (fun p : Vec Ideal S1x19x1 .f32 × Vec Ideal S1x19x1 .f32 × Vec Ideal S1x19x1 .f32 =>
      p.2.1 (ix3 (0 : Fin 1) c (0 : Fin 1))) e).trans ?_
    refine (congrFun (Pieces.out_A_3 (F := Ideal) dv (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0)
      (iblk m dv 0 ⟨n, h⟩) (iblk m dv 1 ⟨n, h⟩)) (ix3 (0 : Fin 1) c (0 : Fin 1))).trans ?_
    refine (Body.pay1_apply (k0_pay7 (F := Ideal) (iblk m dv 1 ⟨n, h⟩)) (k0_pay4 (F := Ideal)) 0 c 0).trans ?_
    rw [Body.pay4_apply]
    rfl
  · refine (congrArg (fun p : Vec Ideal S1x19x1 .f32 × Vec Ideal S1x19x1 .f32 × Vec Ideal S1x19x1 .f32 =>
      p.2.2 (ix3 (0 : Fin 1) c (0 : Fin 1))) e).trans ?_
    refine (congrFun (Pieces.out_A_4 (F := Ideal) dv (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0)
      (iblk m dv 0 ⟨n, h⟩) (iblk m dv 1 ⟨n, h⟩)) (ix3 (0 : Fin 1) c (0 : Fin 1))).trans ?_
    refine (Body.pay2_apply (k0_pay8 (F := Ideal) (iblk m dv 0 ⟨n, h⟩) (iblk m dv 1 ⟨n, h⟩)) (k0_pay5 (F := Ideal)) 0 c 0).trans ?_
    rw [Body.pay5_apply]
    rfl

/-- At a later tile the blocks gain the tile's sums over what the tile before left. -/
theorem stepB (n : ℕ) (h : n + 1 < cfg0.N) (h0 : ¬(n + 1) % 4 = 0) (c : Fin 19) :
    valS m dv (n + 1) h c = valS m dv n (Nat.lt_of_succ_lt h) c + tS m dv (n + 1) h c
      ∧ valN m dv (n + 1) h c = valN m dv n (Nat.lt_of_succ_lt h) c + tN m dv (n + 1) h c
      ∧ valT m dv (n + 1) h c = valT m dv n (Nat.lt_of_succ_lt h) c + tT m dv (n + 1) h c := by
  have e := outsAt0_B m dv ⟨n + 1, h⟩ h0
  refine ⟨?_, ?_, ?_⟩
  · refine (congrArg (fun p : Vec Ideal S1x19x1 .f32 × Vec Ideal S1x19x1 .f32 × Vec Ideal S1x19x1 .f32 =>
      p.1 (ix3 (0 : Fin 1) c (0 : Fin 1))) e).trans ?_
    refine (congrFun (Pieces.out_B_2 (F := Ideal) dv (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh))
      (iblk m dv 0 ⟨n + 1, h⟩) (iblk m dv 1 ⟨n + 1, h⟩) (outsAt0 m dv n (Nat.lt_of_succ_lt h)).1
      (outsAt0 m dv n (Nat.lt_of_succ_lt h)).2.1 (outsAt0 m dv n (Nat.lt_of_succ_lt h)).2.2) (ix3 (0 : Fin 1) c (0 : Fin 1))).trans ?_
    exact Body.pay9_apply (iblk m dv 0 ⟨n + 1, h⟩) (outsAt0 m dv n (Nat.lt_of_succ_lt h)).1 0 c 0
  · refine (congrArg (fun p : Vec Ideal S1x19x1 .f32 × Vec Ideal S1x19x1 .f32 × Vec Ideal S1x19x1 .f32 =>
      p.2.1 (ix3 (0 : Fin 1) c (0 : Fin 1))) e).trans ?_
    refine (congrFun (Pieces.out_B_3 (F := Ideal) dv (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh))
      (iblk m dv 0 ⟨n + 1, h⟩) (iblk m dv 1 ⟨n + 1, h⟩) (outsAt0 m dv n (Nat.lt_of_succ_lt h)).1
      (outsAt0 m dv n (Nat.lt_of_succ_lt h)).2.1 (outsAt0 m dv n (Nat.lt_of_succ_lt h)).2.2) (ix3 (0 : Fin 1) c (0 : Fin 1))).trans ?_
    exact Body.pay1_apply (k0_pay7 (F := Ideal) (iblk m dv 1 ⟨n + 1, h⟩)) (outsAt0 m dv n (Nat.lt_of_succ_lt h)).2.1 0 c 0
  · refine (congrArg (fun p : Vec Ideal S1x19x1 .f32 × Vec Ideal S1x19x1 .f32 × Vec Ideal S1x19x1 .f32 =>
      p.2.2 (ix3 (0 : Fin 1) c (0 : Fin 1))) e).trans ?_
    refine (congrFun (Pieces.out_B_4 (F := Ideal) dv (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh))
      (iblk m dv 0 ⟨n + 1, h⟩) (iblk m dv 1 ⟨n + 1, h⟩) (outsAt0 m dv n (Nat.lt_of_succ_lt h)).1
      (outsAt0 m dv n (Nat.lt_of_succ_lt h)).2.1 (outsAt0 m dv n (Nat.lt_of_succ_lt h)).2.2) (ix3 (0 : Fin 1) c (0 : Fin 1))).trans ?_
    exact Body.pay2_apply (k0_pay8 (F := Ideal) (iblk m dv 0 ⟨n + 1, h⟩) (iblk m dv 1 ⟨n + 1, h⟩))
      (outsAt0 m dv n (Nat.lt_of_succ_lt h)).2.2 0 c 0

/-! ## After the fourth tile -/

/-- After the fourth tile of an image a block holds the four tiles' sums, added in tile order from zero. -/
theorem flush_vals (n : ℕ) (h : n + 1 + 1 + 1 < cfg0.N) (h0 : n % 4 = 0) (c : Fin 19) :
    valS m dv (n + 1 + 1 + 1) h c
        = 0 + tS m dv n (Nat.lt_of_succ_lt (Nat.lt_of_succ_lt (Nat.lt_of_succ_lt h))) c
          + tS m dv (n + 1) (Nat.lt_of_succ_lt (Nat.lt_of_succ_lt h)) c
          + tS m dv (n + 1 + 1) (Nat.lt_of_succ_lt h) c + tS m dv (n + 1 + 1 + 1) h c
      ∧ valN m dv (n + 1 + 1 + 1) h c
        = 0 + tN m dv n (Nat.lt_of_succ_lt (Nat.lt_of_succ_lt (Nat.lt_of_succ_lt h))) c
          + tN m dv (n + 1) (Nat.lt_of_succ_lt (Nat.lt_of_succ_lt h)) c
          + tN m dv (n + 1 + 1) (Nat.lt_of_succ_lt h) c + tN m dv (n + 1 + 1 + 1) h c
      ∧ valT m dv (n + 1 + 1 + 1) h c
        = 0 + tT m dv n (Nat.lt_of_succ_lt (Nat.lt_of_succ_lt (Nat.lt_of_succ_lt h))) c
          + tT m dv (n + 1) (Nat.lt_of_succ_lt (Nat.lt_of_succ_lt h)) c
          + tT m dv (n + 1 + 1) (Nat.lt_of_succ_lt h) c + tT m dv (n + 1 + 1 + 1) h c := by
  obtain ⟨a3, b3, c3⟩ := stepB m dv (n + 1 + 1) h (by omega) c
  obtain ⟨a2, b2, c2⟩ := stepB m dv (n + 1) (Nat.lt_of_succ_lt h) (by omega) c
  obtain ⟨a1, b1, c1⟩ := stepB m dv n (Nat.lt_of_succ_lt (Nat.lt_of_succ_lt h)) (by omega) c
  obtain ⟨a0, b0, c0⟩ := stepA m dv n (Nat.lt_of_succ_lt (Nat.lt_of_succ_lt (Nat.lt_of_succ_lt h))) h0 c
  exact ⟨by rw [a3, a2, a1, a0], by rw [b3, b2, b1, b0], by rw [c3, c2, c1, c0]⟩

/-- Four consecutive row tiles of 128 rows are the 512 rows: the four tiles' sums are the sum over the image. -/
theorem four_tiles (f : Fin 512 → Fin 512 → EReal) :
    0 + (∑ r : Fin 128, ∑ w : Fin 512, f (SumBlocks.idx h512 (0 : Fin 4) r) w)
      + (∑ r : Fin 128, ∑ w : Fin 512, f (SumBlocks.idx h512 (1 : Fin 4) r) w)
      + (∑ r : Fin 128, ∑ w : Fin 512, f (SumBlocks.idx h512 (2 : Fin 4) r) w)
      + (∑ r : Fin 128, ∑ w : Fin 512, f (SumBlocks.idx h512 (3 : Fin 4) r) w)
    = ∑ h : Fin 512, ∑ w : Fin 512, f h w := by
  rw [SumBlocks.sum_eq h512 (fun h => ∑ w : Fin 512, f h w), Fin.sum_univ_four, zero_add]

/-- At the last tile `4b + 3` of image `b` the three blocks hold the image's three sums. -/
theorem flush_sums (t : Fin cfg0.N) (h3 : t.val % 4 = 3) (b : Fin 8) (hb : t.val / 4 = b.val) (c : Fin 19) :
    valS m dv t.val t.isLt c = sumP (X m dv) b c ∧ valN m dv t.val t.isLt c = sumO (T m dv) b c
      ∧ valT m dv t.val t.isLt c = sumPO (X m dv) (T m dv) b c := by
  obtain ⟨tv, ht⟩ := t
  dsimp only at h3 hb ⊢
  obtain ⟨n, rfl⟩ : ∃ n, tv = n + 1 + 1 + 1 := ⟨tv - 3, by omega⟩
  have h0 : n % 4 = 0 := by omega
  obtain ⟨eS, eN, eT⟩ := flush_vals m dv n ht h0 c
  have hn0 : n = 4 * b.val + (0 : Fin 4).val := by show n = 4 * b.val + 0; omega
  have hn1 : n + 1 = 4 * b.val + (1 : Fin 4).val := by show n + 1 = 4 * b.val + 1; omega
  have hn2 : n + 1 + 1 = 4 * b.val + (2 : Fin 4).val := by show n + 1 + 1 = 4 * b.val + 2; omega
  have hn3 : n + 1 + 1 + 1 = 4 * b.val + (3 : Fin 4).val := by show n + 1 + 1 + 1 = 4 * b.val + 3; omega
  refine ⟨?_, ?_, ?_⟩
  · rw [eS, tS_eq m dv n _ c b 0 hn0, tS_eq m dv (n + 1) _ c b 1 hn1, tS_eq m dv (n + 1 + 1) _ c b 2 hn2,
      tS_eq m dv (n + 1 + 1 + 1) _ c b 3 hn3]
    exact four_tiles (fun h w => pP (X m dv) b c h w)
  · rw [eN, tN_eq m dv n _ c b 0 hn0, tN_eq m dv (n + 1) _ c b 1 hn1, tN_eq m dv (n + 1 + 1) _ c b 2 hn2,
      tN_eq m dv (n + 1 + 1 + 1) _ c b 3 hn3]
    exact four_tiles (fun h w => pO (T m dv) b c h w)
  · rw [eT, tT_eq m dv n _ c b 0 hn0, tT_eq m dv (n + 1) _ c b 1 hn1, tT_eq m dv (n + 1 + 1) _ c b 2 hn2,
      tT_eq m dv (n + 1 + 1 + 1) _ c b 3 hn3]
    exact four_tiles (fun h w => pP (X m dv) b c h w * pO (T m dv) b c h w)

/-! ## The three result arrays after the run -/

/-- Result array 0 as one function of the argument arrays: at (b, c, ·) the image's sum for class `c`. -/
def GS : S8x19x1.Idx → EReal := fun i => sumP (X m dv) ⟨(i 0).val, (i 0).isLt⟩ ⟨(i 1).val, (i 1).isLt⟩

/-- What the block holds at a write-back point is the array's block there. -/
theorem flushed_val2 (t : Fin cfg0.N) (h3 : t.val % 4 = 3) (y : S1x19x1.Idx) :
    (outsAt0 m dv t.val t.isLt).1 y = GS m dv (((cfg0.win 2).blk t).view.emb y) := by
  obtain ⟨u, c, z, rfl⟩ : ∃ (u : Fin 1) (c : Fin 19) (z : Fin 1), y = ix3 u c z := ⟨y 0, y 1, y 2, eq_ix3 y⟩
  obtain rfl : u = 0 := Subsingleton.elim _ _
  obtain rfl : z = 0 := Subsingleton.elim _ _
  have hN : t.val < 32 := lt_of_lt_of_eq t.isLt (show cfg0.N = 32 from N_0)
  obtain ⟨e0, e1, e2⟩ := idx_out2 t
  have hb : t.val / 4 < 8 := by omega
  have hs := flush_sums m dv t h3 ⟨t.val / 4, hb⟩ rfl c
  refine ((hs).1).trans ?_
  unfold GS
  refine congrArg₂ (sumP (X m dv)) (Fin.ext ?_) (Fin.ext ?_)
  · show t.val / 4 = win0_2.index t (0 : Fin 3) * 1 + 1 * 0
    rw [e0]; omega
  · show c.val = win0_2.index t (1 : Fin 3) * 19 + 1 * c.val
    rw [e1]; omega

theorem flushed2 (t : Fin cfg0.N) (hf : (cfg0.win 2).flush t = true) :
    (dats m 0 dv).flushed 2 t = ((cfg0.win 2).blk t).view.read (Elt Ideal) (GS m dv) := by
  have h3 : t.val % 4 = 3 := (flush0_2 t).mp hf
  show (cfg0.win 2).cut (grid0.coords t) ((dats m 0 dv).after 2 t) = _
  rw [after0_2]
  funext j
  rw [View.read_apply]
  exact flushed_val2 m dv t h3 j

/-- Every entry (b, c, ·) of the array lies in the block written back after the last tile of image `b`. -/
theorem cover2 (i : S8x19x1.Idx) :
    ∃ t : Fin cfg0.N, (cfg0.win 2).flush t = true ∧ i ∈ ((cfg0.win 2).blk t).view.set := by
  have hi0 : (i 0).val < 8 := (i 0).isLt
  have hi1 : (i 1).val < 19 := (i 1).isLt
  have hi2 : (i 2).val < 1 := (i 2).isLt
  have hN : cfg0.N = 32 := N_0
  obtain ⟨t, ht⟩ : ∃ t : Fin cfg0.N, t.val = 4 * (i 0).val + 3 := ⟨⟨4 * (i 0).val + 3, by rw [hN]; omega⟩, rfl⟩
  obtain ⟨e0, e1, e2⟩ := idx_out2 t
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 19 ≤ (i 1).val ∧ (i 1).val < win0_2.index t (1 : Fin 3) * 19 + 19
    rw [e1]; omega
  | ⟨2, _⟩ =>
    show win0_2.index t (2 : Fin 3) * 1 ≤ (i 2).val ∧ (i 2).val < win0_2.index t (2 : Fin 3) * 1 + 1
    rw [e2]; omega

/-- Result array 0 after the run. -/
theorem final2 : (dats m 0 dv).arrAt 2 cfg0.N = GS m dv :=
  (dats m 0 dv).arrAt_eq_of_cover 2 (GS m dv) (flushed2 m dv) (cover2)

/-- Result array 1 as one function of the argument arrays: at (b, c, ·) the image's sum for class `c`. -/
def GN : S8x19x1.Idx → EReal := fun i => sumO (T m dv) ⟨(i 0).val, (i 0).isLt⟩ ⟨(i 1).val, (i 1).isLt⟩

/-- What the block holds at a write-back point is the array's block there. -/
theorem flushed_val3 (t : Fin cfg0.N) (h3 : t.val % 4 = 3) (y : S1x19x1.Idx) :
    (outsAt0 m dv t.val t.isLt).2.1 y = GN m dv (((cfg0.win 3).blk t).view.emb y) := by
  obtain ⟨u, c, z, rfl⟩ : ∃ (u : Fin 1) (c : Fin 19) (z : Fin 1), y = ix3 u c z := ⟨y 0, y 1, y 2, eq_ix3 y⟩
  obtain rfl : u = 0 := Subsingleton.elim _ _
  obtain rfl : z = 0 := Subsingleton.elim _ _
  have hN : t.val < 32 := lt_of_lt_of_eq t.isLt (show cfg0.N = 32 from N_0)
  obtain ⟨e0, e1, e2⟩ := idx_out3 t
  have hb : t.val / 4 < 8 := by omega
  have hs := flush_sums m dv t h3 ⟨t.val / 4, hb⟩ rfl c
  refine ((hs).2.1).trans ?_
  unfold GN
  refine congrArg₂ (sumO (T m dv)) (Fin.ext ?_) (Fin.ext ?_)
  · show t.val / 4 = win0_3.index t (0 : Fin 3) * 1 + 1 * 0
    rw [e0]; omega
  · show c.val = win0_3.index t (1 : Fin 3) * 19 + 1 * c.val
    rw [e1]; omega

theorem flushed3 (t : Fin cfg0.N) (hf : (cfg0.win 3).flush t = true) :
    (dats m 0 dv).flushed 3 t = ((cfg0.win 3).blk t).view.read (Elt Ideal) (GN m dv) := by
  have h3 : t.val % 4 = 3 := (flush0_3 t).mp hf
  show (cfg0.win 3).cut (grid0.coords t) ((dats m 0 dv).after 3 t) = _
  rw [after0_3]
  funext j
  rw [View.read_apply]
  exact flushed_val3 m dv t h3 j

/-- Every entry (b, c, ·) of the array lies in the block written back after the last tile of image `b`. -/
theorem cover3 (i : S8x19x1.Idx) :
    ∃ t : Fin cfg0.N, (cfg0.win 3).flush t = true ∧ i ∈ ((cfg0.win 3).blk t).view.set := by
  have hi0 : (i 0).val < 8 := (i 0).isLt
  have hi1 : (i 1).val < 19 := (i 1).isLt
  have hi2 : (i 2).val < 1 := (i 2).isLt
  have hN : cfg0.N = 32 := N_0
  obtain ⟨t, ht⟩ : ∃ t : Fin cfg0.N, t.val = 4 * (i 0).val + 3 := ⟨⟨4 * (i 0).val + 3, by rw [hN]; omega⟩, rfl⟩
  obtain ⟨e0, e1, e2⟩ := idx_out3 t
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 19 ≤ (i 1).val ∧ (i 1).val < win0_3.index t (1 : Fin 3) * 19 + 19
    rw [e1]; omega
  | ⟨2, _⟩ =>
    show win0_3.index t (2 : Fin 3) * 1 ≤ (i 2).val ∧ (i 2).val < win0_3.index t (2 : Fin 3) * 1 + 1
    rw [e2]; omega

/-- Result array 1 after the run. -/
theorem final3 : (dats m 0 dv).arrAt 3 cfg0.N = GN m dv :=
  (dats m 0 dv).arrAt_eq_of_cover 3 (GN m dv) (flushed3 m dv) (cover3)

/-- Result array 2 as one function of the argument arrays: at (b, c, ·) the image's sum for class `c`. -/
def GT : S8x19x1.Idx → EReal := fun i => sumPO (X m dv) (T m dv) ⟨(i 0).val, (i 0).isLt⟩ ⟨(i 1).val, (i 1).isLt⟩

/-- What the block holds at a write-back point is the array's block there. -/
theorem flushed_val4 (t : Fin cfg0.N) (h3 : t.val % 4 = 3) (y : S1x19x1.Idx) :
    (outsAt0 m dv t.val t.isLt).2.2 y = GT m dv (((cfg0.win 4).blk t).view.emb y) := by
  obtain ⟨u, c, z, rfl⟩ : ∃ (u : Fin 1) (c : Fin 19) (z : Fin 1), y = ix3 u c z := ⟨y 0, y 1, y 2, eq_ix3 y⟩
  obtain rfl : u = 0 := Subsingleton.elim _ _
  obtain rfl : z = 0 := Subsingleton.elim _ _
  have hN : t.val < 32 := lt_of_lt_of_eq t.isLt (show cfg0.N = 32 from N_0)
  obtain ⟨e0, e1, e2⟩ := idx_out4 t
  have hb : t.val / 4 < 8 := by omega
  have hs := flush_sums m dv t h3 ⟨t.val / 4, hb⟩ rfl c
  refine ((hs).2.2).trans ?_
  unfold GT
  refine congrArg₂ (sumPO (X m dv) (T m dv)) (Fin.ext ?_) (Fin.ext ?_)
  · show t.val / 4 = win0_4.index t (0 : Fin 3) * 1 + 1 * 0
    rw [e0]; omega
  · show c.val = win0_4.index t (1 : Fin 3) * 19 + 1 * c.val
    rw [e1]; omega

theorem flushed4 (t : Fin cfg0.N) (hf : (cfg0.win 4).flush t = true) :
    (dats m 0 dv).flushed 4 t = ((cfg0.win 4).blk t).view.read (Elt Ideal) (GT m dv) := by
  have h3 : t.val % 4 = 3 := (flush0_4 t).mp hf
  show (cfg0.win 4).cut (grid0.coords t) ((dats m 0 dv).after 4 t) = _
  rw [after0_4]
  funext j
  rw [View.read_apply]
  exact flushed_val4 m dv t h3 j

/-- Every entry (b, c, ·) of the array lies in the block written back after the last tile of image `b`. -/
theorem cover4 (i : S8x19x1.Idx) :
    ∃ t : Fin cfg0.N, (cfg0.win 4).flush t = true ∧ i ∈ ((cfg0.win 4).blk t).view.set := by
  have hi0 : (i 0).val < 8 := (i 0).isLt
  have hi1 : (i 1).val < 19 := (i 1).isLt
  have hi2 : (i 2).val < 1 := (i 2).isLt
  have hN : cfg0.N = 32 := N_0
  obtain ⟨t, ht⟩ : ∃ t : Fin cfg0.N, t.val = 4 * (i 0).val + 3 := ⟨⟨4 * (i 0).val + 3, by rw [hN]; omega⟩, rfl⟩
  obtain ⟨e0, e1, e2⟩ := idx_out4 t
  refine ⟨t, (flush0_4 t).mpr (by omega), ?_⟩
  show i ∈ ((View.whole main_v0_2).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 19 ≤ (i 1).val ∧ (i 1).val < win0_4.index t (1 : Fin 3) * 19 + 19
    rw [e1]; omega
  | ⟨2, _⟩ =>
    show win0_4.index t (2 : Fin 3) * 1 ≤ (i 2).val ∧ (i 2).val < win0_4.index t (2 : Fin 3) * 1 + 1
    rw [e2]; omega

/-- Result array 2 after the run. -/
theorem final4 : (dats m 0 dv).arrAt 4 cfg0.N = GT m dv :=
  (dats m 0 dv).arrAt_eq_of_cover 4 (GT m dv) (flushed4 m dv) (cover4)

end Cert.KernelIdeal.Acc

end
-- ==== Proof.Tail.lean ====
/-
  The loss from the three per-class sums.

  With `TP`, `FN`, `FP` of shape [8, 19] (true positives, false negatives, false positives per image and class):
  the Tversky index `(TP + ε) / (TP + α·FN + β·FP + ε)` with the float words of ε = 1e-7, α = 0.7, β = 0.3, then
  `(1 − index) ^ 1`, summed over all images and classes from 0, divided by 8.  Both programs end with exactly these
  operations on the same words, so they are kept as one function and never opened.
-/
import Idealize.ShloMosaic.PureOps.Ideal

noncomputable section

namespace Cert.Tversky

open Idealize.ShloMosaic

abbrev T8x19 : Shape := ⟨2, ![8, 19]⟩
abbrev T0 : Shape := ⟨0, ![]⟩

/-- The loss from the per-class sums. -/
def tail (hb : T0.BroadcastsInDim T8x19 (![] : Fin 0 → Fin T8x19.rank)) (hr : T8x19.ReducesTo [0, 1] T0)
    (hs : 0 < T0.numel) (TP FN FP : FVec Ideal T8x19 .f32) : FVec Ideal T0 .f32 :=
  Host.divf (Host.reduceAdd (Host.powf
      (subf (broadcastInDim T8x19 ![] hb (constant (F := Ideal) T0 .f32 0x3F800000#32))
        (Host.divf (addf TP (broadcastInDim T8x19 ![] hb (constant (F := Ideal) T0 .f32 0x33D6BF95#32)))
          (addf (addf (addf TP (mulf (broadcastInDim T8x19 ![] hb (constant (F := Ideal) T0 .f32 0x3F333333#32)) FN))
            (mulf (broadcastInDim T8x19 ![] hb (constant (F := Ideal) T0 .f32 0x3E99999A#32)) FP))
            (broadcastInDim T8x19 ![] hb (constant (F := Ideal) T0 .f32 0x33D6BF95#32)))))
      (broadcastInDim T8x19 ![] hb (constant (F := Ideal) T0 .f32 0x3F800000#32)))
    (constant (F := Ideal) T0 .f32 0x00000000#32) hr hs)
    (constant (F := Ideal) T0 .f32 0x41000000#32)

end Cert.Tversky

end
-- ==== Proof.KernelValue.lean ====
/-
  The kernel program's run, read: its result as a function of the argument arrays.

  After the grid has run, the three result arrays hold the per-image, per-class sums (the module on the running
  blocks).  The lines after the grid view each array [8, 19], form `N − TP` and `S − TP`, and apply the shared last
  stretch; the arguments are left as they were.
-/
import proofs.«157776_j17343077941338_2_alg».proof.Proof.Accumulate
import proofs.«157776_j17343077941338_2_alg».proof.Proof.Tail
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.Tversky Cert.KernelIdeal.Acc
open Idealize.ShloMosaic.ValueIdx

variable (m : (ℓ : Loc nD τ sig) → Buf (Elt Ideal) ℓ) (ρ : Dev nD → PrngReg)

/-- The three result arrays viewed [8, 19]. -/
def kS (dv : Dev nD) : FVec Ideal S8x19 .f32 := shapeCast S8x19 (GS m dv) shapeCasts_S8x19x1_S8x19
def kN (dv : Dev nD) : FVec Ideal S8x19 .f32 := shapeCast S8x19 (GN m dv) shapeCasts_S8x19x1_S8x19
def kT (dv : Dev nD) : FVec Ideal S8x19 .f32 := shapeCast S8x19 (GT m dv) shapeCasts_S8x19x1_S8x19

/-- The program's result: the shared last stretch of the true positives, `N − TP` and `S − TP`. -/
def kres (dv : Dev nD) : FVec Ideal S_ .f32 :=
  tail bcast_S_S8x19 reducesTo_S8x19_S_d0_1 h_S_ (kT m dv) (subf (kN m dv) (kT m dv)) (subf (kS m dv) (kT m dv))

/-- The three result arrays, as the lines after the grid find them. -/
theorem arr2 (dv : Dev nD) :
    Pipeline.withArrays (cfgs 0).spec dv (V0 m dv) (fun w => (dats m 0 dv).arrAt w (cfgs 0).N)
      (Proc.devRef .tc main_v0_0) = GS m dv :=
  (Pipeline.withArrays_arr spec0 launch0.win.arr_inj dv _ _ 2).trans (final2 m dv)
theorem arr3 (dv : Dev nD) :
    Pipeline.withArrays (cfgs 0).spec dv (V0 m dv) (fun w => (dats m 0 dv).arrAt w (cfgs 0).N)
      (Proc.devRef .tc main_v0_1) = GN m dv :=
  (Pipeline.withArrays_arr spec0 launch0.win.arr_inj dv _ _ 3).trans (final3 m dv)
theorem arr4 (dv : Dev nD) :
    Pipeline.withArrays (cfgs 0).spec dv (V0 m dv) (fun w => (dats m 0 dv).arrAt w (cfgs 0).N)
      (Proc.devRef .tc main_v0_2) = GT m dv :=
  (Pipeline.withArrays_arr spec0 launch0.win.arr_inj dv _ _ 4).trans (final4 m dv)

set_option maxHeartbeats 1000000 in
/-- What the lines after the grid leave in the result buffer. -/
theorem tail_eq (dv : Dev nD) :
    Pipeline.afterTail₀ cfgs (dats m) 0 (V0 m) [hostOps1] dv main_v22 = kres m dv := by
  unfold Pipeline.afterTail₀
  simp only [List.flatten_cons, List.flatten_nil, List.append_nil]
  after_results
  rw [arr2, arr3, arr4]
  rfl

/-- The result buffer is no array of the grid and is not scoped: the run's post speaks of it. -/
theorem mem22 : main_v22 ∈ Pipeline.restRefs sig cfg0.spec :=
  Pipeline.mem_restRefs_of main_v22 rfl (fun w => by fin_cases w <;> decide)

/-- Every weakly fair execution of the kernel program ends with the result at `kres` and the arguments unchanged. -/
theorem run : θ_run defs (onTc (τ := τ) (main (F := Ideal))) ⟨m, fun _ => 0, ρ⟩ fun r => ∀ c : Dev nD,
      r.2.mem ((c.tc : Thread nD τ).loc main_v22) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v22 mem22).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference, read at the ideal values.

  The reference computes the softmax of the whole score array along the class axis (the maximum by a host fold of
  `max` from −∞, once more maxed with −∞; the normaliser a host sum from 0), the one-hot array by comparing the
  broadcast labels with the broadcast class counter, and then three sums over the rows and columns of each image
  and class: of `p·o`, of `(1 − o)·p` and of `o·(1 − p)`.  Entry by entry these are the pixel functions `pP` and
  `pO` of the specification, and the rest of the program is the shared last stretch `tail`.
-/
import proofs.«157776_j17343077941338_2_alg».proof.Proof.Gen.ReferenceIdeal.Read
import proofs.«157776_j17343077941338_2_alg».proof.Proof.Pixel
import proofs.«157776_j17343077941338_2_alg».proof.Proof.Tail
import proofs.«157776_j17343077941338_2_alg».proof.Proof.LibAxisFolds

noncomputable section

namespace Cert.ReferenceIdeal.RefValue

open Cert.ReferenceIdeal Cert.ReferenceIdeal.Gen Cert.ReferenceIdeal.Read Cert.Tversky Cert.Lib.AxisFolds
open Idealize.ShloMosaic Idealize.ShloMosaic.ValueIdx

variable (X : Scores) (T : Labels)

/-- The broadcast maximum at (b, c, h, w): the largest score of the pixel's column. -/
theorem v4_apply (b : Fin 8) (c : Fin 19) (h w : Fin 512) :
    val_main_v4 (F := Ideal) X (ix4 b c h w) = smax (fun k => X (ix4 b k h w)) := by
  rw [val_main_v4_apply, val_main_v3_apply, val_main_v2_apply, val_main_v1_apply, val_main_cst_0_apply]
  have hi : idx_main_v3 (idx_main_v4 (ix4 b c h w)) = ix3 b h w :=
    funext fun a => Fin.ext (by match a with | ⟨0, _⟩ => rfl | ⟨1, _⟩ => rfl | ⟨2, _⟩ => rfl)
  rw [hi]
  unfold val_main_v0
  rw [hostReduce_max_axis1_apply X _ _ (by decide) h_S_ b h w]
  show max (Ideal.ofBits .f32 0xFF800000#32) (smax (fun k => X (ix4 b k h w))) = _
  rw [ofBits_neg_inf]
  exact max_eq_right bot_le

/-- The shifted exponential at (b, c, h, w). -/
theorem v6_apply (b : Fin 8) (c : Fin 19) (h w : Fin 512) :
    val_main_v6 (F := Ideal) X (ix4 b c h w) = sexp (fun k => X (ix4 b k h w)) c := by
  rw [val_main_v6_apply, val_main_v5_apply, v4_apply]
  rfl

/-- The broadcast normaliser at (b, c, h, w). -/
theorem v9_apply (b : Fin 8) (c : Fin 19) (h w : Fin 512) :
    val_main_v9 (F := Ideal) X (ix4 b c h w) = ∑ k : Fin 19, sexp (fun k => X (ix4 b k h w)) k := by
  rw [val_main_v9_apply, val_main_v8_apply, val_main_v7_apply, val_main_cst_1_apply]
  have hi : idx_main_v8 (idx_main_v9 (ix4 b c h w)) = ix3 b h w :=
    funext fun a => Fin.ext (by match a with | ⟨0, _⟩ => rfl | ⟨1, _⟩ => rfl | ⟨2, _⟩ => rfl)
  rw [hi]
  show Ideal.ofBits .f32 0x00000000#32 + _ = _
  rw [Ideal.ofBits_zero_f32, zero_add]
  refine Finset.sum_congr rfl fun k _ => ?_
  have hk : idx_main_v7 (ix3 b h w) k = ix4 b k h w :=
    funext fun a => Fin.ext (by match a with | ⟨0, _⟩ => rfl | ⟨1, _⟩ => rfl | ⟨2, _⟩ => rfl | ⟨3, _⟩ => rfl)
  rw [hk, v6_apply]

/-- The probability array at (b, c, h, w). -/
theorem v10_apply (b : Fin 8) (c : Fin 19) (h w : Fin 512) :
    val_main_v10 (F := Ideal) X (ix4 b c h w) = pP X b c h w := by
  rw [val_main_v10_apply, v6_apply, v9_apply]
  rfl

/-- A label compared with a class word, converted: the one-hot value. -/
theorem hot_of_cmp (l a : BitVec 32) :
    FloatOps.uitofp (F := Ideal) .f32 (IntOp.cmpi .eq l a) = (if l = a then (1 : EReal) else 0) := by
  show (((BitVec.ofBool (l == a)).toNat : ℝ) : EReal) = _
  by_cases h : l = a
  · subst h
    rw [beq_self_eq_true, if_pos rfl]
    simp
  · have hne : (l == a) = false := by rw [beq_eq_false_iff_ne]; exact h
    rw [hne, if_neg h]
    simp

/-- The one-hot array at (b, c, h, w). -/
theorem v17_apply (b : Fin 8) (c : Fin 19) (h w : Fin 512) :
    val_main_v17 (F := Ideal) T (ix4 b c h w) = pO T b c h w := by
  rw [val_main_v17_apply, val_main_v16_apply, val_main_v14_apply, val_main_v11_apply, val_main_v15_apply,
    val_main_v13_apply, val_main_v12_apply, hot_of_cmp]
  have hi : idx_main_v11 (idx_main_v14 (ix4 b c h w)) = ix3 b h w :=
    funext fun a => Fin.ext (by match a with | ⟨0, _⟩ => rfl | ⟨1, _⟩ => rfl | ⟨2, _⟩ => rfl)
  rw [hi]
  rfl

/-- The word of 1.0, broadcast. -/
theorem v20_apply (i : S8x19x512x512.Idx) : val_main_v20 (F := Ideal) i = 1 := by
  rw [val_main_v20_apply, val_main_cst_3_apply]
  exact ofBits_one

theorem v24_apply (i : S8x19x512x512.Idx) : val_main_v24 (F := Ideal) i = 1 := by
  rw [val_main_v24_apply, val_main_cst_5_apply]
  exact ofBits_one

/-- The true positives of image `b`, class `c`. -/
theorem v19_apply (b : Fin 8) (c : Fin 19) : val_main_v19 (F := Ideal) X T (ix2 b c) = sumPO X T b c := by
  unfold val_main_v19
  show Ideal.hostReduceAdd reducesTo_S8x19x512x512_S8x19_d2_3 (val_main_v18 (F := Ideal) X T)
    (Ideal.ofBits .f32 0x00000000#32) (ix2 b c) = _
  rw [hostReduceAdd_trailing_two4_apply, Ideal.ofBits_zero_f32, zero_add]
  unfold sumPO
  refine Finset.sum_congr rfl fun h _ => Finset.sum_congr rfl fun w _ => ?_
  rw [val_main_v18_apply, v10_apply, v17_apply]
  rfl

/-- The false positives of image `b`, class `c`, as the reference sums them. -/
theorem v23_apply (b : Fin 8) (c : Fin 19) :
    val_main_v23 (F := Ideal) X T (ix2 b c) = ∑ h : Fin 512, ∑ w : Fin 512, ((1 : EReal) - pO T b c h w) * pP X b c h w := by
  unfold val_main_v23
  show Ideal.hostReduceAdd reducesTo_S8x19x512x512_S8x19_d2_3 (val_main_v22 (F := Ideal) X T)
    (Ideal.ofBits .f32 0x00000000#32) (ix2 b c) = _
  rw [hostReduceAdd_trailing_two4_apply, Ideal.ofBits_zero_f32, zero_add]
  refine Finset.sum_congr rfl fun h _ => Finset.sum_congr rfl fun w _ => ?_
  rw [val_main_v22_apply, val_main_v21_apply, v20_apply, v10_apply, v17_apply]
  rfl

/-- The false negatives of image `b`, class `c`, as the reference sums them. -/
theorem v27_apply (b : Fin 8) (c : Fin 19) :
    val_main_v27 (F := Ideal) X T (ix2 b c) = ∑ h : Fin 512, ∑ w : Fin 512, pO T b c h w * ((1 : EReal) - pP X b c h w) := by
  unfold val_main_v27
  show Ideal.hostReduceAdd reducesTo_S8x19x512x512_S8x19_d2_3 (val_main_v26 (F := Ideal) X T)
    (Ideal.ofBits .f32 0x00000000#32) (ix2 b c) = _
  rw [hostReduceAdd_trailing_two4_apply, Ideal.ofBits_zero_f32, zero_add]
  refine Finset.sum_congr rfl fun h _ => Finset.sum_congr rfl fun w _ => ?_
  rw [val_main_v26_apply, val_main_v25_apply, v24_apply, v10_apply, v17_apply]
  rfl

/-- The reference's result is the shared last stretch of its three sums. -/
theorem v44_eq_tail :
    val_main_v44 (F := Ideal) X T
      = tail bcast_S_S8x19 reducesTo_S8x19_S_d0_1 h_S_ (val_main_v19 (F := Ideal) X T) (val_main_v27 (F := Ideal) X T)
          (val_main_v23 (F := Ideal) X T) := rfl

end Cert.ReferenceIdeal.RefValue

end
-- ==== Proof.Bridge.lean ====
/-
  The two programs' results are one function of the argument arrays.

  The kernel's three result arrays hold, per image and class, `S = Σ p`, `N = Σ o` and `TP = Σ p·o`, and its last
  stretch is applied to `TP`, `N − TP`, `S − TP`.  The reference applies the same last stretch to `Σ p·o`,
  `Σ o·(1 − p)` and `Σ (1 − o)·p`.  When every score is a real number, `Σ o·(1 − p) = N − TP` and
  `Σ (1 − o)·p = S − TP` (all terms are real, so the sums split and cancel), and the two results agree.
-/
import proofs.«157776_j17343077941338_2_alg».proof.Proof.KernelValue
import proofs.«157776_j17343077941338_2_alg».proof.Proof.RefValue

noncomputable section

open Idealize.ShloMosaic Idealize.ShloMosaic.TcCoe Idealize.SL.Sem

namespace Cert.Tversky.Bridge

open Cert.KernelIdeal Cert.KernelIdeal.Gen Cert.Tversky Cert.KernelIdeal.Acc Cert.KernelIdeal.KValue
open Idealize.ShloMosaic.ValueIdx

variable (m : (ℓ : Loc nD τ sig) → Buf (Elt Ideal) ℓ) (dv : Dev nD)

/-- An array [a, b, 1] viewed [a, b] reads, at (p, n), its entry (p, n, 0). -/
theorem shapeCast_ab1_ab_apply {α : Type} {a b : Nat} (x : (⟨3, ![a, b, 1]⟩ : Shape).Idx → α)
    (h : (⟨3, ![a, b, 1]⟩ : Shape).ShapeCasts ⟨2, ![a, b]⟩) (p : Fin a) (n : Fin b) :
    shapeCast ⟨2, ![a, b]⟩ x h (ix2 p n) = x (ix3 p n (0 : Fin 1)) :=
  shapeCast_apply x h _ _ (by
    rw [Shape.rowMajor_val_three, Shape.rowMajor_val_two]
    show (p.val * b + n.val) * 1 + 0 = p.val * b + n.val
    rw [Nat.mul_one, Nat.add_zero])

theorem kS_apply (b : Fin 8) (c : Fin 19) : kS m dv (ix2 b c) = sumP (X m dv) b c :=
  shapeCast_ab1_ab_apply _ _ b c
theorem kN_apply (b : Fin 8) (c : Fin 19) : kN m dv (ix2 b c) = sumO (T m dv) b c :=
  shapeCast_ab1_ab_apply _ _ b c
theorem kT_apply (b : Fin 8) (c : Fin 19) : kT m dv (ix2 b c) = sumPO (X m dv) (T m dv) b c :=
  shapeCast_ab1_ab_apply _ _ b c

/-- The reference's true positives are the kernel's. -/
theorem tp_eq : Cert.ReferenceIdeal.Read.val_main_v19 (F := Ideal) (X m dv) (T m dv) = kT m dv := by
  funext i
  obtain ⟨b, c, rfl⟩ : ∃ (b : Fin 8) (c : Fin 19), i = ix2 b c := ⟨i 0, i 1, eq_ix2 i⟩
  rw [Cert.ReferenceIdeal.RefValue.v19_apply, kT_apply]

/-- With real scores the reference's false negatives are the kernel's `N − TP`. -/
theorem fn_agree (hX : ∀ i, ∃ r : ℝ, X m dv i = r) :
    Cert.ReferenceIdeal.Read.val_main_v27 (F := Ideal) (X m dv) (T m dv) = subf (kN m dv) (kT m dv) := by
  funext i
  obtain ⟨b, c, rfl⟩ : ∃ (b : Fin 8) (c : Fin 19), i = ix2 b c := ⟨i 0, i 1, eq_ix2 i⟩
  show _ = kN m dv (ix2 b c) - kT m dv (ix2 b c)
  rw [Cert.ReferenceIdeal.RefValue.v27_apply, kN_apply, kT_apply, fn_eq (X m dv) (T m dv) hX b c]

/-- With real scores the reference's false positives are the kernel's `S − TP`. -/
theorem fp_agree (hX : ∀ i, ∃ r : ℝ, X m dv i = r) :
    Cert.ReferenceIdeal.Read.val_main_v23 (F := Ideal) (X m dv) (T m dv) = subf (kS m dv) (kT m dv) := by
  funext i
  obtain ⟨b, c, rfl⟩ : ∃ (b : Fin 8) (c : Fin 19), i = ix2 b c := ⟨i 0, i 1, eq_ix2 i⟩
  show _ = kS m dv (ix2 b c) - kT m dv (ix2 b c)
  rw [Cert.ReferenceIdeal.RefValue.v23_apply, kS_apply, kT_apply, fp_eq (X m dv) (T m dv) hX b c]

/-- With real scores the reference's result is the kernel's. -/
theorem result_eq (hX : ∀ i, ∃ r : ℝ, X m dv i = r) :
    Cert.ReferenceIdeal.Read.val_main_v44 (F := Ideal) (X m dv) (T m dv) = kres m dv := by
  rw [Cert.ReferenceIdeal.RefValue.v44_eq_tail, tp_eq, fn_agree m dv hX, fp_agree m dv hX]
  rfl

end Cert.Tversky.Bridge

end
-- ==== Proof.Finite.lean ====
/-
  What the precondition gives: every score is a real number.

  The precondition says that `|x| < +∞` holds at every entry of the score array (a reduce by `and`, over all four
  axes, of the comparison, from `true`).  An extended real whose absolute value `max x (−x)` is below `+∞` is
  neither `+∞` nor `−∞`, so it is a real number.
-/
import proofs.«157776_j17343077941338_2_alg».proof.Pre_finite_inputs
import Idealize.ShloMosaic.Lib.ReduceAll
import Idealize.ShloMosaic.Lib.ValueIdx
import Idealize.ShloMosaic.PureOps.Ideal

noncomputable section

namespace Cert.Tversky.Finite

open Idealize.ShloMosaic Cert.Pre_finite_inputs

instance : Subsingleton S_.Idx := ⟨fun a b => funext fun d => d.elim0⟩

/-- Under the precondition every entry of the score array is a real number. -/
theorem real_of_pre [Facts] (X : FVec Ideal S8x19x512x512 .f32) (T : IVec S8x512x512 32)
    (h : fn (F := Ideal) X T = fun _ => 1#1) (i : S8x19x512x512.Idx) : ∃ r : ℝ, X i = r := by
  have h0 := congrFun h ValueIdx.ix0
  dsimp only [fn] at h0
  have hi := Host.reduce_andi_all _ _ _ _ _ h0 i
  have htop : Ideal.ofBits .f32 0x7F800000#32 = ⊤ := by simp [Ideal.ofBits, Ideal.ieee]
  have hb : BitVec.ofBool (decide (max (X i) (-(X i)) < Ideal.ofBits .f32 0x7F800000#32)) = 1#1 := hi
  rw [htop] at hb
  have hlt : max (X i) (-(X i)) < (⊤ : EReal) := by
    cases hd : decide (max (X i) (-(X i)) < (⊤ : EReal)) with
    | false => rw [hd] at hb; exact absurd hb (by decide)
    | true => exact of_decide_eq_true hd
  have ht : X i ≠ ⊤ := fun e => by rw [e] at hlt; simp at hlt
  have hbot : X i ≠ ⊥ := fun e => by rw [e] at hlt; simp at hlt
  exact ⟨(X i).toReal, (EReal.coe_toReal ht hbot).symm⟩

end Cert.Tversky.Finite

end
-- ==== Proof.lean ====
/-
  A focal Tversky loss over softmax probabilities: the tiled kernel against the plain reference.

  For scores `x` of shape [8, 19, 512, 512] and labels of shape [8, 512, 512], with `p` the softmax of `x` over the
  19 classes and `o` the one-hot labels, both programs compute, per image and class, the true positives
  `TP = Σ p·o`, the false negatives and the false positives over the 512 × 512 pixels, then
  `(1 − (TP + ε)/(TP + α·FN + β·FP + ε))^1`, summed over images and classes and divided by 8.

  The reference sums `FP = Σ (1 − o)·p` and `FN = Σ o·(1 − p)` directly.  The kernel walks each image in four row
  tiles of 128 rows, accumulates `S = Σ p`, `N = Σ o` and `TP` in three blocks that restart at the first tile, and
  afterwards takes `FP = S − TP`, `FN = N − TP`.  Over the extended reals these agree because every probability is
  a real number when every score is (the precondition): the sums then split and the common term cancels.  The
  regrouping of the pixel sums by tiles uses only that addition is commutative and associative.

  The three frames are the generated ones (the reference's is its generated run with the result dropped); the
  idealization rewrote nothing, so `preserves` is trivial.
-/
import proofs.«157776_j17343077941338_2_alg».proof.Defs
import proofs.«157776_j17343077941338_2_alg».proof.Proof.Gen.Kernel
import proofs.«157776_j17343077941338_2_alg».proof.Proof.Gen.Kernel.Skeleton
import proofs.«157776_j17343077941338_2_alg».proof.Proof.Gen.Kernel.Launch
import proofs.«157776_j17343077941338_2_alg».proof.Proof.Gen.Kernel.Points
import proofs.«157776_j17343077941338_2_alg».proof.Proof.Gen.Kernel.Frame
import proofs.«157776_j17343077941338_2_alg».proof.Proof.Gen.KernelIdeal
import proofs.«157776_j17343077941338_2_alg».proof.Proof.Gen.KernelIdeal.Skeleton
import proofs.«157776_j17343077941338_2_alg».proof.Proof.Gen.KernelIdeal.Launch
import proofs.«157776_j17343077941338_2_alg».proof.Proof.Gen.KernelIdeal.Points
import proofs.«157776_j17343077941338_2_alg».proof.Proof.Gen.KernelIdeal.Frame
import proofs.«157776_j17343077941338_2_alg».proof.Proof.Gen.ReferenceIdeal
import proofs.«157776_j17343077941338_2_alg».proof.Proof.Gen.ReferenceIdeal.Run
import proofs.«157776_j17343077941338_2_alg».proof.Proof.Gen.ReferenceIdeal.Read
import proofs.«157776_j17343077941338_2_alg».proof.Proof.Gen.Pre_finite_inputs
import proofs.«157776_j17343077941338_2_alg».proof.Proof.Bridge
import proofs.«157776_j17343077941338_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel program ends at the shared last stretch of `TP`, `N − TP`, `S − TP`, the
    reference at the same stretch of its three sums of arguments that agree; the scores being real, the triples
    are equal. -/
theorem algebraic : Cert.algebraic_KernelIdeal_ReferenceIdeal := by
  intro m ρ m' ρ' hpre hagree
  refine ⟨fun c => Cert.KernelIdeal.KValue.kres m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2]
  exact Cert.Tversky.Bridge.result_eq m c (fun i => Cert.Tversky.Finite.real_of_pre _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
